-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x100 : Shape := ⟨2, ![50000, 100]⟩
abbrev S2x800000 : Shape := ⟨2, ![2, 800000]⟩
abbrev S800000x100 : Shape := ⟨2, ![800000, 100]⟩
abbrev S300x100 : Shape := ⟨2, ![300, 100]⟩
abbrev S100 : Shape := ⟨1, ![100]⟩
abbrev S100x100 : Shape := ⟨2, ![100, 100]⟩
abbrev S100x64 : Shape := ⟨2, ![100, 64]⟩
abbrev S64 : Shape := ⟨1, ![64]⟩
abbrev S64x100 : Shape := ⟨2, ![64, 100]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S800000x100 : S_.BroadcastsInDim S800000x100 (![] : Fin 0 → Fin S800000x100.rank)
  reducesTo_S800000x100_S_d0_1 : S800000x100.ReducesTo [0, 1] S_
  bcast_S_S300x100 : S_.BroadcastsInDim S300x100 (![] : Fin 0 → Fin S300x100.rank)
  reducesTo_S300x100_S_d0_1 : S300x100.ReducesTo [0, 1] S_
  bcast_S_S100 : S_.BroadcastsInDim S100 (![] : Fin 0 → Fin S100.rank)
  reducesTo_S100_S_d0 : S100.ReducesTo [0] S_
  bcast_S_S100x100 : S_.BroadcastsInDim S100x100 (![] : Fin 0 → Fin S100x100.rank)
  reducesTo_S100x100_S_d0_1 : S100x100.ReducesTo [0, 1] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x100 : S_.BroadcastsInDim S64x100 (![] : Fin 0 → Fin S64x100.rank)
  reducesTo_S64x100_S_d0_1 : S64x100.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64 .f32) (main_arg13 : FVec F S64x100 .f32) (main_arg14 : FVec F S100 .f32) (main_v48 : IVec S_ 1) (main_v49 : FVec F S100x64 .f32) (main_v50 : FVec F S100x64 .f32) : IVec S_ 1 :=
  let main_v51 : IVec S100x64 1 := cmpf .olt main_v49 main_v50
  let main_c_19 : IVec S_ 1 := constantI S_ 1 1#1
  let main_v52 : IVec S_ 1 := (fun x v => Host.reduce IntOp.andi x v reducesTo_S100x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x100 .f32 := Host.absf main_arg13
  let main_cst_22 : FVec F S_ .f32 := constant S_ .f32 0x7F800000#32
  let main_v60 : FVec F S64x100 .f32 := broadcastInDim S64x100 ![] bcast_S_S64x100 main_cst_22
  let main_v61 : IVec S64x100 1 := cmpf .olt main_v59 main_v60
  let main_c_23 : IVec S_ 1 := constantI S_ 1 1#1
  let main_v62 : IVec S_ 1 := (fun x v => Host.reduce IntOp.andi x v reducesTo_S64x100_S_d0_1 h_S_) main_v61 main_c_23
  let main_v63 : IVec S_ 1 := andi main_v58 main_v62
  let main_v64 : FVec F S100 .f32 := Host.absf main_arg14
  let main_cst_24 : FVec F S_ .f32 := constant S_ .f32 0x7F800000#32
  let main_v65 : FVec F S100 .f32 := broadcastInDim S100 ![] bcast_S_S100 main_cst_24
  let main_v66 : IVec S100 1 := cmpf .olt main_v64 main_v65
  let main_c_25 : IVec S_ 1 := constantI S_ 1 1#1
  let main_v67 : IVec S_ 1 := (fun x v => Host.reduce IntOp.andi x v reducesTo_S100_S_d0 h_S_) main_v66 main_c_25
  fn_part4 (F := F) main_v63 main_v67

def fn_part2 {F : FTy → Type} [FloatOps F] (main_arg8 : FVec F S100 .f32) (main_arg9 : FVec F S300x100 .f32) (main_arg10 : FVec F S100 .f32) (main_arg11 : FVec F S100x64 .f32) (main_arg12 : FVec F S64 .f32) (main_arg13 : FVec F S64x100 .f32) (main_arg14 : FVec F S100 .f32) (main_v33 : IVec S_ 1) : IVec S_ 1 :=
  let main_v34 : FVec F S100 .f32 := Host.absf main_arg8
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S300x100 .f32 := Host.absf main_arg9
  let main_cst_14 : FVec F S_ .f32 := constant S_ .f32 0x7F800000#32
  let main_v40 : FVec F S300x100 .f32 := broadcastInDim S300x100 ![] bcast_S_S300x100 main_cst_14
  let main_v41 : IVec S300x100 1 := cmpf .olt main_v39 main_v40
  let main_c_15 : IVec S_ 1 := constantI S_ 1 1#1
  let main_v42 : IVec S_ 1 := (fun x v => Host.reduce IntOp.andi x v reducesTo_S300x100_S_d0_1 h_S_) main_v41 main_c_15
  let main_v43 : IVec S_ 1 := andi main_v38 main_v42
  let main_v44 : FVec F S100 .f32 := Host.absf main_arg10
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100x64 .f32 := Host.absf main_arg11
  let main_cst_18 : FVec F S_ .f32 := constant S_ .f32 0x7F800000#32
  let main_v50 : FVec F S100x64 .f32 := broadcastInDim S100x64 ![] bcast_S_S100x64 main_cst_18
  fn_part3 (F := F) main_arg12 main_arg13 main_arg14 main_v48 main_v49 main_v50

def fn_part1 {F : FTy → Type} [FloatOps F] (main_arg5 : FVec F S100x100 .f32) (main_arg6 : FVec F S100 .f32) (main_arg7 : FVec F S100x100 .f32) (main_arg8 : FVec F S100 .f32) (main_arg9 : FVec F S300x100 .f32) (main_arg10 : FVec F S100 .f32) (main_arg11 : FVec F S100x64 .f32) (main_arg12 : FVec F S64 .f32) (main_arg13 : FVec F S64x100 .f32) (main_arg14 : FVec F S100 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100x100 .f32 := Host.absf main_arg5
  let main_cst_6 : FVec F S_ .f32 := constant S_ .f32 0x7F800000#32
  let main_v20 : FVec F S100x100 .f32 := broadcastInDim S100x100 ![] bcast_S_S100x100 main_cst_6
  let main_v21 : IVec S100x100 1 := cmpf .olt main_v19 main_v20
  let main_c_7 : IVec S_ 1 := constantI S_ 1 1#1
  let main_v22 : IVec S_ 1 := (fun x v => Host.reduce IntOp.andi x v reducesTo_S100x100_S_d0_1 h_S_) main_v21 main_c_7
  let main_v23 : IVec S_ 1 := andi main_v18 main_v22
  let main_v24 : FVec F S100 .f32 := Host.absf main_arg6
  let main_cst_8 : FVec F S_ .f32 := constant S_ .f32 0x7F800000#32
  let main_v25 : FVec F S100 .f32 := broadcastInDim S100 ![] bcast_S_S100 main_cst_8
  let main_v26 : IVec S100 1 := cmpf .olt main_v24 main_v25
  let main_c_9 : IVec S_ 1 := constantI S_ 1 1#1
  let main_v27 : IVec S_ 1 := (fun x v => Host.reduce IntOp.andi x v reducesTo_S100_S_d0 h_S_) main_v26 main_c_9
  let main_v28 : IVec S_ 1 := andi main_v23 main_v27
  let main_v29 : FVec F S100x100 .f32 := Host.absf main_arg7
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x100 .f32) (main_arg1 : IVec S2x800000 32) (main_arg2 : FVec F S800000x100 .f32) (main_arg3 : FVec F S300x100 .f32) (main_arg4 : FVec F S100 .f32) (main_arg5 : FVec F S100x100 .f32) (main_arg6 : FVec F S100 .f32) (main_arg7 : FVec F S100x100 .f32) (main_arg8 : FVec F S100 .f32) (main_arg9 : FVec F S300x100 .f32) (main_arg10 : FVec F S100 .f32) (main_arg11 : FVec F S100x64 .f32) (main_arg12 : FVec F S64 .f32) (main_arg13 : FVec F S64x100 .f32) (main_arg14 : FVec F S100 .f32) : IVec S_ 1 :=
  let main_v0 : FVec F S50000x100 .f32 := Host.absf main_arg0
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S800000x100 .f32 := Host.absf main_arg2
  let main_cst_0 : FVec F S_ .f32 := constant S_ .f32 0x7F800000#32
  let main_v5 : FVec F S800000x100 .f32 := broadcastInDim S800000x100 ![] bcast_S_S800000x100 main_cst_0
  let main_v6 : IVec S800000x100 1 := cmpf .olt main_v4 main_v5
  let main_c_1 : IVec S_ 1 := constantI S_ 1 1#1
  let main_v7 : IVec S_ 1 := (fun x v => Host.reduce IntOp.andi x v reducesTo_S800000x100_S_d0_1 h_S_) main_v6 main_c_1
  let main_v8 : IVec S_ 1 := andi main_v3 main_v7
  let main_v9 : FVec F S300x100 .f32 := Host.absf main_arg3
  let main_cst_2 : FVec F S_ .f32 := constant S_ .f32 0x7F800000#32
  let main_v10 : FVec F S300x100 .f32 := broadcastInDim S300x100 ![] bcast_S_S300x100 main_cst_2
  let main_v11 : IVec S300x100 1 := cmpf .olt main_v9 main_v10
  let main_c_3 : IVec S_ 1 := constantI S_ 1 1#1
  let main_v12 : IVec S_ 1 := (fun x v => Host.reduce IntOp.andi x v reducesTo_S300x100_S_d0_1 h_S_) main_v11 main_c_3
  let main_v13 : IVec S_ 1 := andi main_v8 main_v12
  let main_v14 : FVec F S100 .f32 := Host.absf main_arg4
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x100 : Shape := ⟨2, ![50000, 100]⟩
abbrev S2x800000 : Shape := ⟨2, ![2, 800000]⟩
abbrev S800000x100 : Shape := ⟨2, ![800000, 100]⟩
abbrev S300x100 : Shape := ⟨2, ![300, 100]⟩
abbrev S100 : Shape := ⟨1, ![100]⟩
abbrev S100x100 : Shape := ⟨2, ![100, 100]⟩
abbrev S100x64 : Shape := ⟨2, ![100, 64]⟩
abbrev S64 : Shape := ⟨1, ![64]⟩
abbrev S64x100 : Shape := ⟨2, ![64, 100]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x100 : Shape := ⟨2, ![1, 100]⟩
abbrev S4000x100 : Shape := ⟨2, ![4000, 100]⟩
abbrev S5000x100 : Shape := ⟨2, ![5000, 100]⟩
abbrev S1x64 : Shape := ⟨2, ![1, 64]⟩
abbrev S5000x64 : Shape := ⟨2, ![5000, 64]⟩

abbrev nBuf : Space → Nat
  | .hbm => 79
  | .vmem => 44
  | .smem => 0
  | _ => 0

abbrev bufTy : (tb : Table) → Fin (tcTables nBuf tb) → BufTy
  | .hbm, ⟨0, _⟩ => ⟨S50000x100, .f32⟩
  | .hbm, ⟨1, _⟩ => ⟨S2x800000, .i32⟩
  | .hbm, ⟨2, _⟩ => ⟨S800000x100, .f32⟩
  | .hbm, ⟨3, _⟩ => ⟨S300x100, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S300x100, .f32⟩
  | .hbm, ⟨10, _⟩ => ⟨S100, .f32⟩
  | .hbm, ⟨11, _⟩ => ⟨S100x64, .f32⟩
  | .hbm, ⟨12, _⟩ => ⟨S64, .f32⟩
  | .hbm, ⟨13, _⟩ => ⟨S64x100, .f32⟩
  | .hbm, ⟨14, _⟩ => ⟨S100, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x100, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x100, .f32⟩
  | .hbm, ⟨37, _⟩ => ⟨S100x100, .f32⟩
  | .hbm, ⟨38, _⟩ => ⟨S100x100, .f32⟩
  | .hbm, ⟨39, _⟩ => ⟨S100x100, .f32⟩
  | .hbm, ⟨40, _⟩ => ⟨S1x100, .f32⟩
  | .hbm, ⟨41, _⟩ => ⟨S800000x100, .f32⟩
  | .hbm, ⟨42, _⟩ => ⟨S_, .f32⟩
  | .hbm, ⟨43, _⟩ => ⟨S50000x100, .f32⟩
  | .hbm, ⟨44, _⟩ => ⟨S800000x1, .i32⟩
  | .hbm, ⟨45, _⟩ => ⟨S50000x100, .f32⟩
  | .hbm, ⟨46, _⟩ => ⟨S1x100, .f32⟩
  | .hbm, ⟨47, _⟩ => ⟨S1x100, .f32⟩
  | .hbm, ⟨48, _⟩ => ⟨S50000x100, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x100, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x100, .f32⟩
  | .hbm, ⟨67, _⟩ => ⟨S100x100, .f32⟩
  | .hbm, ⟨68, _⟩ => ⟨S100x100, .f32⟩
  | .hbm, ⟨69, _⟩ => ⟨S100x100, .f32⟩
  | .hbm, ⟨70, _⟩ => ⟨S1x100, .f32⟩
  | .hbm, ⟨71, _⟩ => ⟨S800000x100, .f32⟩
  | .hbm, ⟨72, _⟩ => ⟨S_, .f32⟩
  | .hbm, ⟨73, _⟩ => ⟨S50000x100, .f32⟩
  | .hbm, ⟨74, _⟩ => ⟨S800000x1, .i32⟩
  | .hbm, ⟨75, _⟩ => ⟨S50000x100, .f32⟩
  | .hbm, ⟨76, _⟩ => ⟨S1x64, .f32⟩
  | .hbm, ⟨77, _⟩ => ⟨S1x100, .f32⟩
  | .hbm, ⟨78, _⟩ => ⟨S50000x100, .f32⟩
  | .local _ .vmem, ⟨0, _⟩ => ⟨S4000x100, .f32⟩
  | .local _ .vmem, ⟨1, _⟩ => ⟨S4000x100, .f32⟩
  | .local _ .vmem, ⟨2, _⟩ => ⟨S4000x100, .f32⟩
  | .local _ .vmem, ⟨3, _⟩ => ⟨S4000x100, .f32⟩
  | .local _ .vmem, ⟨4, _⟩ => ⟨S4000x100, .f32⟩
  | .local _ .vmem, ⟨5, _⟩ => ⟨S4000x100, .f32⟩
  | .local _ .vmem, ⟨6, _⟩ => ⟨S100x100, .f32⟩
  | .local _ .vmem, ⟨7, _⟩ => ⟨S100x100, .f32⟩
  | .local _ .vmem, ⟨8, _⟩ => ⟨S100x100, .f32⟩
  | .local _ .vmem, ⟨9, _⟩ => ⟨S1x100, .f32⟩
  | .local _ .vmem, ⟨10, _⟩ => ⟨S4000x100, .f32⟩
  | .local _ .vmem, ⟨11, _⟩ => ⟨S4000x100, .f32⟩
  | .local _ .vmem, ⟨12, _⟩ => ⟨S5000x100, .f32⟩
  | .local _ .vmem, ⟨13, _⟩ => ⟨S5000x100, .f32⟩
  | .local _ .vmem, ⟨14, _⟩ => ⟨S5000x100, .f32⟩
  | .local _ .vmem, ⟨15, _⟩ => ⟨S5000x100, .f32⟩
  | .local _ .vmem, ⟨16, _⟩ => ⟨S100x100, .f32⟩
  | .local _ .vmem, ⟨17, _⟩ => ⟨S1x100, .f32⟩
  | .local _ .vmem, ⟨18, _⟩ => ⟨S100x100, .f32⟩
  | .local _ .vmem, ⟨19, _⟩ => ⟨S1x100, .f32⟩
  | .local _ .vmem, ⟨20, _⟩ => ⟨S5000x100, .f32⟩
  | .local _ .vmem, ⟨21, _⟩ => ⟨S5000x100, .f32⟩
  | .local _ .vmem, ⟨22, _⟩ => ⟨S4000x100, .f32⟩
  | .local _ .vmem, ⟨23, _⟩ => ⟨S4000x100, .f32⟩
  | .local _ .vmem, ⟨24, _⟩ => ⟨S4000x100, .f32⟩
  | .local _ .vmem, ⟨25, _⟩ => ⟨S4000x100, .f32⟩
  | .local _ .vmem, ⟨26, _⟩ => ⟨S4000x100, .f32⟩
  | .local _ .vmem, ⟨27, _⟩ => ⟨S4000x100, .f32⟩
  | .local _ .vmem, ⟨28, _⟩ => ⟨S100x100, .f32⟩
  | .local _ .vmem, ⟨29, _⟩ => ⟨S100x100, .f32⟩
  | .local _ .vmem, ⟨30, _⟩ => ⟨S100x100, .f32⟩
  | .local _ .vmem, ⟨31, _⟩ => ⟨S1x100, .f32⟩
  | .local _ .vmem, ⟨32, _⟩ => ⟨S4000x100, .f32⟩
  | .local _ .vmem, ⟨33, _⟩ => ⟨S4000x100, .f32⟩
  | .local _ .vmem, ⟨34, _⟩ => ⟨S5000x100, .f32⟩
  | .local _ .vmem, ⟨35, _⟩ => ⟨S5000x100, .f32⟩
  | .local _ .vmem, ⟨36, _⟩ => ⟨S5000x100, .f32⟩
  | .local _ .vmem, ⟨37, _⟩ => ⟨S5000x100, .f32⟩
  | .local _ .vmem, ⟨38, _⟩ => ⟨S100x64, .f32⟩
  | .local _ .vmem, ⟨39, _⟩ => ⟨S1x64, .f32⟩
  | .local _ .vmem, ⟨40, _⟩ => ⟨S64x100, .f32⟩
  | .local _ .vmem, ⟨41, _⟩ => ⟨S1x100, .f32⟩
  | .local _ .vmem, ⟨42, _⟩ => ⟨S5000x100, .f32⟩
  | .local _ .vmem, ⟨43, _⟩ => ⟨S5000x100, .f32⟩
  | _, _ => ⟨S50000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_3 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x100 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x100 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S100x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S100x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S100x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x100 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x100 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x100 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S100x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x100 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x100 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x100 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S300x100_S100x100_0_0 : S300x100.Slices ![0, 0] S100x100
  slices_S300x100_S100x100_100_0 : S300x100.Slices ![100, 0] S100x100
  slices_S300x100_S100x100_200_0 : S300x100.Slices ![200, 0] S100x100
  shapeCasts_S100_S1x100 : S100.ShapeCasts S1x100
  inb_S4000x100_S4000x100_0_0 : ∀ a, (![0, 0] : Fin 2 → Nat) a + S4000x100.size a ≤ S4000x100.size a
  h_S4000x100 : 0 < S4000x100.numel
  shapeCasts_S4000x100_S4000x100 : S4000x100.ShapeCasts S4000x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4000x100 : S1x100.Broadcasts S4000x100
  bcast_S_S50000x100 : S_.BroadcastsInDim S50000x100 (![] : Fin 0 → Fin S50000x100.rank)
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  broadcasts_S1x100_S5000x100 : S1x100.Broadcasts S5000x100
  shapeCasts_S64_S1x64 : S64.ShapeCasts S1x64
  inb_S100x64_S100x64_0_0 : ∀ a, (![0, 0] : Fin 2 → Nat) a + S100x64.size a ≤ S100x64.size a
  h_S100x64 : 0 < S100x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x100_S64x100_0_0 : ∀ a, (![0, 0] : Fin 2 → Nat) a + S64x100.size a ≤ S64x100.size a
  h_S64x100 : 0 < S64x100.numel
  gather_S50000x100_S800000x1_S800000x100_1_0_n_n_0_1_1100_wf : GatherDims.WF S50000x100 S800000x1 S800000x100 [1] [0] [] [0] [] 1 ![1, 100]
  dot_S4000x100_S100x100_S4000x100_1_0_0_1_n_n_wf : DotDims.WF S4000x100 S100x100 S4000x100 [1] [0] [0] [1] [] []
  scatter_S50000x100_S800000x1_S800000x100_1_0_0_1_wf : ScatterDims.WF S50000x100 S800000x1 S800000x100 [1] [0] [0] 1
  dot_S5000x100_S100x100_S5000x100_1_0_0_1_n_n_wf : DotDims.WF S5000x100 S100x100 S5000x100 [1] [0] [0] [1] [] []
  dot_S5000x100_S100x64_S5000x64_1_0_0_1_n_n_wf : DotDims.WF S5000x100 S100x64 S5000x64 [1] [0] [0] [1] [] []
  dot_S5000x64_S64x100_S5000x100_1_0_0_1_n_n_wf : DotDims.WF S5000x64 S64x100 S5000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x100.size a ≤ S800000x100.size a
  hwx0_0 : ∀ i : grid0.Coords, EltTy.bits .f32 = 32 ∨ (Rect.block (s := S800000x100) S4000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x100.size a ≤ S800000x100.size a
  hwx0_1 : ∀ i : grid0.Coords, EltTy.bits .f32 = 32 ∨ (Rect.block (s := S800000x100) S4000x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x100.size a ≤ S800000x100.size a
  hwx0_2 : ∀ i : grid0.Coords, EltTy.bits .f32 = 32 ∨ (Rect.block (s := S800000x100) S4000x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .f32 = 32 ∨ (Rect.block (s := S100x100) S100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x100.size a ≤ S100x100.size a
  hwx0_4 : ∀ i : grid0.Coords, EltTy.bits .f32 = 32 ∨ (Rect.block (s := S100x100) S100x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x100.size a ≤ S100x100.size a
  hwx0_5 : ∀ i : grid0.Coords, EltTy.bits .f32 = 32 ∨ (Rect.block (s := S100x100) S100x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x100.size a ≤ S800000x100.size a
  hwx0_7 : ∀ i : grid0.Coords, EltTy.bits .f32 = 32 ∨ (Rect.block (s := S800000x100) S4000x100.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x100.size a ≤ S50000x100.size a
  hwx1_0 : ∀ i : grid1.Coords, EltTy.bits .f32 = 32 ∨ (Rect.block (s := S50000x100) S5000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x100.size a ≤ S50000x100.size a
  hwx1_1 : ∀ i : grid1.Coords, EltTy.bits .f32 = 32 ∨ (Rect.block (s := S50000x100) S5000x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x100.size a ≤ S100x100.size a
  hwx1_2 : ∀ i : grid1.Coords, EltTy.bits .f32 = 32 ∨ (Rect.block (s := S100x100) S100x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x100.size a ≤ S1x100.size a
  hwx1_3 : ∀ i : grid1.Coords, EltTy.bits .f32 = 32 ∨ (Rect.block (s := S1x100) S1x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x100.size a ≤ S100x100.size a
  hwx1_4 : ∀ i : grid1.Coords, EltTy.bits .f32 = 32 ∨ (Rect.block (s := S100x100) S100x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x100.size a ≤ S1x100.size a
  hwx1_5 : ∀ i : grid1.Coords, EltTy.bits .f32 = 32 ∨ (Rect.block (s := S1x100) S1x100.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x100.size a ≤ S50000x100.size a
  hwx1_6 : ∀ i : grid1.Coords, EltTy.bits .f32 = 32 ∨ (Rect.block (s := S50000x100) S5000x100.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x100.size a ≤ S800000x100.size a
  hwx2_0 : ∀ i : grid2.Coords, EltTy.bits .f32 = 32 ∨ (Rect.block (s := S800000x100) S4000x100.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x100.size a ≤ S800000x100.size a
  hwx2_1 : ∀ i : grid2.Coords, EltTy.bits .f32 = 32 ∨ (Rect.block (s := S800000x100) S4000x100.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x100.size a ≤ S800000x100.size a
  hwx2_2 : ∀ i : grid2.Coords, EltTy.bits .f32 = 32 ∨ (Rect.block (s := S800000x100) S4000x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S100x100.size a ≤ S100x100.size a
  hwx2_3 : ∀ i : grid2.Coords, EltTy.bits .f32 = 32 ∨ (Rect.block (s := S100x100) S100x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S100x100.size a ≤ S100x100.size a
  hwx2_4 : ∀ i : grid2.Coords, EltTy.bits .f32 = 32 ∨ (Rect.block (s := S100x100) S100x100.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S100x100.size a ≤ S100x100.size a
  hwx2_5 : ∀ i : grid2.Coords, EltTy.bits .f32 = 32 ∨ (Rect.block (s := S100x100) S100x100.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x100.size a ≤ S1x100.size a
  hwx2_6 : ∀ i : grid2.Coords, EltTy.bits .f32 = 32 ∨ (Rect.block (s := S1x100) S1x100.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x100.size a ≤ S800000x100.size a
  hwx2_7 : ∀ i : grid2.Coords, EltTy.bits .f32 = 32 ∨ (Rect.block (s := S800000x100) S4000x100.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x100.size a ≤ S50000x100.size a
  hwx3_0 : ∀ i : grid3.Coords, EltTy.bits .f32 = 32 ∨ (Rect.block (s := S50000x100) S5000x100.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x100.size a ≤ S50000x100.size a
  hwx3_1 : ∀ i : grid3.Coords, EltTy.bits .f32 = 32 ∨ (Rect.block (s := S50000x100) S5000x100.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S100x64.size a ≤ S100x64.size a
  hwx3_2 : ∀ i : grid3.Coords, EltTy.bits .f32 = 32 ∨ (Rect.block (s := S100x64) S100x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x100.size a ≤ S64x100.size a
  hwx3_4 : ∀ i : grid3.Coords, EltTy.bits .f32 = 32 ∨ (Rect.block (s := S64x100) S64x100.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x100.size a ≤ S1x100.size a
  hwx3_5 : ∀ i : grid3.Coords, EltTy.bits .f32 = 32 ∨ (Rect.block (s := S1x100) S1x100.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x100.size a ≤ S50000x100.size a
  hwx3_6 : ∀ i : grid3.Coords, EltTy.bits .f32 = 32 ∨ (Rect.block (s := S50000x100) S5000x100.size (cc3_transform_6 i) (hinb3_6 i)).WholeWords (EltTy.packing .f32)

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def dot_S4000x100_S100x100_S4000x100_1_0_0_1_n_n : DotDims S4000x100 S100x100 S4000x100 where
  lhsContracting := [1]
  rhsContracting := [0]
  lhsNonContracting := [0]
  rhsNonContracting := [1]
  lhsBatch := []
  rhsBatch := []
  wf := dot_S4000x100_S100x100_S4000x100_1_0_0_1_n_n_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S5000x100_S100x100_S5000x100_1_0_0_1_n_n : DotDims S5000x100 S100x100 S5000x100 where
  lhsContracting := [1]
  rhsContracting := [0]
  lhsNonContracting := [0]
  rhsNonContracting := [1]
  lhsBatch := []
  rhsBatch := []
  wf := dot_S5000x100_S100x100_S5000x100_1_0_0_1_n_n_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def dot_S5000x64_S64x100_S5000x100_1_0_0_1_n_n : DotDims S5000x64 S64x100 S5000x100 where
  lhsContracting := [1]
  rhsContracting := [0]
  lhsNonContracting := [0]
  rhsNonContracting := [1]
  lhsBatch := []
  rhsBatch := []
  wf := dot_S5000x64_S64x100_S5000x100_1_0_0_1_n_n_wf

abbrev win0_0 : Pipeline.Window sig grid0 :=
  Pipeline.Window.ofSpec (Memref.whole main_v10) S4000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S100x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S100x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S4000x100.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25) S5000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S100x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S100x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S5000x100.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v35) S4000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S4000x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S4000x100.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S100x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S100x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S100x100.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x100.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47) S4000x100.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50) S5000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x100.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S100x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S64x100.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S1x100.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S5000x100.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x100 : Shape := ⟨2, ![50000, 100]⟩
abbrev S2x800000 : Shape := ⟨2, ![2, 800000]⟩
abbrev S800000x100 : Shape := ⟨2, ![800000, 100]⟩
abbrev S300x100 : Shape := ⟨2, ![300, 100]⟩
abbrev S100 : Shape := ⟨1, ![100]⟩
abbrev S100x100 : Shape := ⟨2, ![100, 100]⟩
abbrev S100x64 : Shape := ⟨2, ![100, 64]⟩
abbrev S64 : Shape := ⟨1, ![64]⟩
abbrev S64x100 : Shape := ⟨2, ![64, 100]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x300 : Shape := ⟨2, ![800000, 300]⟩
abbrev S1x100 : Shape := ⟨2, ![1, 100]⟩
abbrev S50000x64 : Shape := ⟨2, ![50000, 64]⟩
abbrev S1x64 : Shape := ⟨2, ![1, 64]⟩

abbrev nBuf : Space → Nat
  | .hbm => 109
  | .vmem => 0
  | .smem => 0
  | _ => 0

abbrev bufTy : (tb : Table) → Fin (tcTables nBuf tb) → BufTy
  | .hbm, ⟨0, _⟩ => ⟨S50000x100, .f32⟩
  | .hbm, ⟨1, _⟩ => ⟨S2x800000, .i32⟩
  | .hbm, ⟨2, _⟩ => ⟨S800000x100, .f32⟩
  | .hbm, ⟨3, _⟩ => ⟨S300x100, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S100x100, .f32⟩
  | .hbm, ⟨8, _⟩ => ⟨S100, .f32⟩
  | .hbm, ⟨9, _⟩ => ⟨S300x100, .f32⟩
  | .hbm, ⟨10, _⟩ => ⟨S100, .f32⟩
  | .hbm, ⟨11, _⟩ => ⟨S100x64, .f32⟩
  | .hbm, ⟨12, _⟩ => ⟨S64, .f32⟩
  | .hbm, ⟨13, _⟩ => ⟨S64x100, .f32⟩
  | .hbm, ⟨14, _⟩ => ⟨S100, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x100, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x100, .f32⟩
  | .hbm, ⟨37, _⟩ => ⟨S800000x300, .f32⟩
  | .hbm, ⟨38, _⟩ => ⟨S800000x100, .f32⟩
  | .hbm, ⟨39, _⟩ => ⟨S1x100, .f32⟩
  | .hbm, ⟨40, _⟩ => ⟨S800000x100, .f32⟩
  | .hbm, ⟨41, _⟩ => ⟨S800000x100, .f32⟩
  | .hbm, ⟨42, _⟩ => ⟨S_, .f32⟩
  | .hbm, ⟨43, _⟩ => ⟨S800000x100, .f32⟩
  | .hbm, ⟨44, _⟩ => ⟨S800000x100, .f32⟩
  | .hbm, ⟨45, _⟩ => ⟨S_, .f32⟩
  | .hbm, ⟨46, _⟩ => ⟨S50000x100, .f32⟩
  | .hbm, ⟨47, _⟩ => ⟨S800000x1, .i32⟩
  | .hbm, ⟨48, _⟩ => ⟨S50000x100, .f32⟩
  | .hbm, ⟨49, _⟩ => ⟨S50000x100, .f32⟩
  | .hbm, ⟨50, _⟩ => ⟨S50000x100, .f32⟩
  | .hbm, ⟨51, _⟩ => ⟨S1x100, .f32⟩
  | .hbm, ⟨52, _⟩ => ⟨S50000x100, .f32⟩
  | .hbm, ⟨53, _⟩ => ⟨S50000x100, .f32⟩
  | .hbm, ⟨54, _⟩ => ⟨S_, .f32⟩
  | .hbm, ⟨55, _⟩ => ⟨S50000x100, .f32⟩
  | .hbm, ⟨56, _⟩ => ⟨S50000x100, .f32⟩
  | .hbm, ⟨57, _⟩ => ⟨S50000x100, .f32⟩
  | .hbm, ⟨58, _⟩ => ⟨S1x100, .f32⟩
  | .hbm, ⟨59, _⟩ => ⟨S50000x100, .f32⟩
  | .hbm, ⟨60, _⟩ => ⟨S50000x100, .f32⟩
  | .hbm, ⟨61, _⟩ => ⟨S_, .f32⟩
  | .hbm, ⟨62, _⟩ => ⟨S50000x100, .f32⟩
  | .hbm, ⟨63, _⟩ => ⟨S50000x100, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x100, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x100, .f32⟩
  | .hbm, ⟨82, _⟩ => ⟨S800000x300, .f32⟩
  | .hbm, ⟨83, _⟩ => ⟨S800000x100, .f32⟩
  | .hbm, ⟨84, _⟩ => ⟨S1x100, .f32⟩
  | .hbm, ⟨85, _⟩ => ⟨S800000x100, .f32⟩
  | .hbm, ⟨86, _⟩ => ⟨S800000x100, .f32⟩
  | .hbm, ⟨87, _⟩ => ⟨S_, .f32⟩
  | .hbm, ⟨88, _⟩ => ⟨S800000x100, .f32⟩
  | .hbm, ⟨89, _⟩ => ⟨S800000x100, .f32⟩
  | .hbm, ⟨90, _⟩ => ⟨S_, .f32⟩
  | .hbm, ⟨91, _⟩ => ⟨S50000x100, .f32⟩
  | .hbm, ⟨92, _⟩ => ⟨S800000x1, .i32⟩
  | .hbm, ⟨93, _⟩ => ⟨S50000x100, .f32⟩
  | .hbm, ⟨94, _⟩ => ⟨S50000x100, .f32⟩
  | .hbm, ⟨95, _⟩ => ⟨S50000x64, .f32⟩
  | .hbm, ⟨96, _⟩ => ⟨S1x64, .f32⟩
  | .hbm, ⟨97, _⟩ => ⟨S50000x64, .f32⟩
  | .hbm, ⟨98, _⟩ => ⟨S50000x64, .f32⟩
  | .hbm, ⟨99, _⟩ => ⟨S_, .f32⟩
  | .hbm, ⟨100, _⟩ => ⟨S50000x64, .f32⟩
  | .hbm, ⟨101, _⟩ => ⟨S50000x64, .f32⟩
  | .hbm, ⟨102, _⟩ => ⟨S50000x100, .f32⟩
  | .hbm, ⟨103, _⟩ => ⟨S1x100, .f32⟩
  | .hbm, ⟨104, _⟩ => ⟨S50000x100, .f32⟩
  | .hbm, ⟨105, _⟩ => ⟨S50000x100, .f32⟩
  | .hbm, ⟨106, _⟩ => ⟨S_, .f32⟩
  | .hbm, ⟨107, _⟩ => ⟨S50000x100, .f32⟩
  | .hbm, ⟨108, _⟩ => ⟨S50000x100, .f32⟩
  | _, _ => ⟨S50000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_cst : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call2_cst : Ref sig .tc := ⟨.hbm, 61, rfl⟩
abbrev main_call2_v0 : Ref sig .tc := ⟨.hbm, 62, rfl⟩
abbrev main_v37 : Ref sig .tc := ⟨.hbm, 63, rfl⟩
abbrev main_c_3 : Ref sig .tc := ⟨.hbm, 64, rfl⟩
abbrev main_v38 : Ref sig .tc := ⟨.hbm, 65, rfl⟩
abbrev main_v39 : Ref sig .tc := ⟨.hbm, 66, rfl⟩
abbrev main_c_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_5 : Ref sig .tc := ⟨.hbm, 73, rfl⟩
abbrev main_v45 : Ref sig .tc := ⟨.hbm, 74, rfl⟩
abbrev main_v46 : Ref sig .tc := ⟨.hbm, 75, rfl⟩
abbrev main_c_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call3_cst : Ref sig .tc := ⟨.hbm, 87, rfl⟩
abbrev main_call3_v0 : Ref sig .tc := ⟨.hbm, 88, rfl⟩
abbrev main_v57 : Ref sig .tc := ⟨.hbm, 89, rfl⟩
abbrev main_cst_7 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call4_cst : Ref sig .tc := ⟨.hbm, 99, rfl⟩
abbrev main_call4_v0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call5_cst : Ref sig .tc := ⟨.hbm, 106, rfl⟩
abbrev main_call5_v0 : Ref sig .tc := ⟨.hbm, 107, rfl⟩
abbrev main_v71 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x100_S800000x100_S800000x100_S800000x300_d1 : Shape.Concatenates [S800000x100, S800000x100, S800000x100] S800000x300 1
  bcast_S100_S1x100_1 : S100.BroadcastsInDim S1x100 (![1] : Fin 1 → Fin S1x100.rank)
  bcast_S1x100_S800000x100_0_1 : S1x100.BroadcastsInDim S800000x100 (![0, 1] : Fin 2 → Fin S800000x100.rank)
  bcast_S_S800000x100 : S_.BroadcastsInDim S800000x100 (![] : Fin 0 → Fin S800000x100.rank)
  bcast_S_S50000x100 : S_.BroadcastsInDim S50000x100 (![] : Fin 0 → Fin S50000x100.rank)
  bcast_S1x100_S50000x100_0_1 : S1x100.BroadcastsInDim S50000x100 (![0, 1] : Fin 2 → Fin S50000x100.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  gather_S50000x100_S800000x1_S800000x100_1_0_n_n_0_1_1100_wf : GatherDims.WF S50000x100 S800000x1 S800000x100 [1] [0] [] [0] [] 1 ![1, 100]
  dot_S800000x300_S300x100_S800000x100_1_0_0_1_n_n_wf : DotDims.WF S800000x300 S300x100 S800000x100 [1] [0] [0] [1] [] []
  scatter_S50000x100_S800000x1_S800000x100_1_0_0_1_wf : ScatterDims.WF S50000x100 S800000x1 S800000x100 [1] [0] [0] 1
  dot_S50000x100_S100x100_S50000x100_1_0_0_1_n_n_wf : DotDims.WF S50000x100 S100x100 S50000x100 [1] [0] [0] [1] [] []
  dot_S50000x100_S100x64_S50000x64_1_0_0_1_n_n_wf : DotDims.WF S50000x100 S100x64 S50000x64 [1] [0] [0] [1] [] []
  dot_S50000x64_S64x100_S50000x100_1_0_0_1_n_n_wf : DotDims.WF S50000x64 S64x100 S50000x100 [1] [0] [0] [1] [] []

variable [Facts₀]

def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def dot_S800000x300_S300x100_S800000x100_1_0_0_1_n_n : DotDims S800000x300 S300x100 S800000x100 where
  lhsContracting := [1]
  rhsContracting := [0]
  lhsNonContracting := [0]
  rhsNonContracting := [1]
  lhsBatch := []
  rhsBatch := []
  wf := dot_S800000x300_S300x100_S800000x100_1_0_0_1_n_n_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x100_S50000x100_1_0_0_1_n_n : DotDims S50000x100 S100x100 S50000x100 where
  lhsContracting := [1]
  rhsContracting := [0]
  lhsNonContracting := [0]
  rhsNonContracting := [1]
  lhsBatch := []
  rhsBatch := []
  wf := dot_S50000x100_S100x100_S50000x100_1_0_0_1_n_n_wf
def dot_S50000x100_S100x64_S50000x64_1_0_0_1_n_n : DotDims S50000x100 S100x64 S50000x64 where
  lhsContracting := [1]
  rhsContracting := [0]
  lhsNonContracting := [0]
  rhsNonContracting := [1]
  lhsBatch := []
  rhsBatch := []
  wf := dot_S50000x100_S100x64_S50000x64_1_0_0_1_n_n_wf
def dot_S50000x64_S64x100_S50000x100_1_0_0_1_n_n : DotDims S50000x64 S64x100 S50000x100 where
  lhsContracting := [1]
  rhsContracting := [0]
  lhsNonContracting := [0]
  rhsNonContracting := [1]
  lhsBatch := []
  rhsBatch := []
  wf := dot_S50000x64_S64x100_S50000x100_1_0_0_1_n_n_wf

class Facts : Prop extends Facts₀ where

variable [Facts]
-- ==== Proof.KRun.lean ====
/-
  The idealized kernel's run with every buffer named.

  The program's frame proof runs @main as eight segments — four stretches of host operations and four kernel
  regions — and ends holding, on every core, every unscoped buffer at one valuation: the fold of the host
  operations' results and of the regions' written-back arrays from the launch memory (`GenP.W8`). The frame
  theorem keeps of that only the argument arrays. Here the same run is stated with the whole final valuation in
  its post, so that the result buffer can be read.
-/
import proofs.«113108_j87514253623335_1_alg».proof.Proof.KernelIdealFrameP

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and any property of the final memory that
    follows from "every unscoped TensorCore buffer holds the fold's value" holds of it. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W8 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := hQ)

end Cert.KernelIdeal.KValue

end
-- ==== Proof.KSpec.lean ====
/-
  The two layers of the network as whole-array functions, in the host's spelling.

  `msg` is the message layer of one convolution over all 800000 edges: the gathered target features XI, the edge
  features EA and the gathered source features XJ (each [800000, 100]) joined side by side into [800000, 300],
  multiplied by the weights W [300, 100], plus the bias B, clamped at zero. `upd100` and `upd64` are the node
  update over all 50000 nodes, a two-layer perceptron with a zero clamp after each layer applied to the
  aggregated messages plus the node's own features, with 100 and with 64 hidden units.
  The kernel's result and the reference's result are both stated through these.
-/
import Idealize.ShloMosaic.PureOps.Ideal
import Idealize.ShloMosaic.Lib.ValueIdx

noncomputable section

namespace Cert.KernelIdeal.KValue

open Idealize.ShloMosaic

theorem hcat : Shape.Concatenates [(⟨2, ![800000, 100]⟩ : Shape), (⟨2, ![800000, 100]⟩ : Shape), (⟨2, ![800000, 100]⟩ : Shape)]
    (⟨2, ![800000, 300]⟩ : Shape) 1 := by decide
theorem hrow100 : (⟨1, ![100]⟩ : Shape).BroadcastsInDim ⟨2, ![1, 100]⟩ ![1] := by decide
theorem hrow64 : (⟨1, ![64]⟩ : Shape).BroadcastsInDim ⟨2, ![1, 64]⟩ ![1] := by decide
theorem hrowsE : (⟨2, ![1, 100]⟩ : Shape).BroadcastsInDim ⟨2, ![800000, 100]⟩ ![0, 1] := by decide
theorem hrowsN100 : (⟨2, ![1, 100]⟩ : Shape).BroadcastsInDim ⟨2, ![50000, 100]⟩ ![0, 1] := by decide
theorem hrowsN64 : (⟨2, ![1, 64]⟩ : Shape).BroadcastsInDim ⟨2, ![50000, 64]⟩ ![0, 1] := by decide
theorem hzeroE : (⟨0, ![]⟩ : Shape).BroadcastsInDim ⟨2, ![800000, 100]⟩ ![] := by decide
theorem hzeroN100 : (⟨0, ![]⟩ : Shape).BroadcastsInDim ⟨2, ![50000, 100]⟩ ![] := by decide
theorem hzeroN64 : (⟨0, ![]⟩ : Shape).BroadcastsInDim ⟨2, ![50000, 64]⟩ ![] := by decide

/-- The message layer over all edges: relu (cat (XI, EA, XJ) · W + B). -/
def msg (XI EA XJ : FVec Ideal ⟨2, ![800000, 100]⟩ .f32) (W : FVec Ideal ⟨2, ![300, 100]⟩ .f32)
    (B : FVec Ideal ⟨1, ![100]⟩ .f32) : FVec Ideal ⟨2, ![800000, 100]⟩ .f32 :=
  maximumf
    (addf
      (Host.dotGeneral (F := Ideal) (DotDims.plain 800000 300 100) none
        (concatenate (⟨2, ![800000, 300]⟩ : Shape) 1
          [⟨(⟨2, ![800000, 100]⟩ : Shape), XI⟩, ⟨(⟨2, ![800000, 100]⟩ : Shape), EA⟩, ⟨(⟨2, ![800000, 100]⟩ : Shape), XJ⟩] hcat) W)
      (broadcastInDim ⟨2, ![800000, 100]⟩ ![0, 1] hrowsE (broadcastInDim ⟨2, ![1, 100]⟩ ![1] hrow100 B)))
    (broadcastInDim ⟨2, ![800000, 100]⟩ ![] hzeroE (constant (F := Ideal) ⟨0, ![]⟩ .f32 0x00000000#32))

/-- The node update with 100 hidden units: relu (relu (A · W₁ + B₁) · W₂ + B₂). -/
def upd100 (A : FVec Ideal ⟨2, ![50000, 100]⟩ .f32) (W₁ : FVec Ideal ⟨2, ![100, 100]⟩ .f32) (B₁ : FVec Ideal ⟨1, ![100]⟩ .f32)
    (W₂ : FVec Ideal ⟨2, ![100, 100]⟩ .f32) (B₂ : FVec Ideal ⟨1, ![100]⟩ .f32) : FVec Ideal ⟨2, ![50000, 100]⟩ .f32 :=
  maximumf
    (addf
      (Host.dotGeneral (F := Ideal) (DotDims.plain 50000 100 100) none
        (maximumf
          (addf (Host.dotGeneral (F := Ideal) (DotDims.plain 50000 100 100) none A W₁)
            (broadcastInDim ⟨2, ![50000, 100]⟩ ![0, 1] hrowsN100 (broadcastInDim ⟨2, ![1, 100]⟩ ![1] hrow100 B₁)))
          (broadcastInDim ⟨2, ![50000, 100]⟩ ![] hzeroN100 (constant (F := Ideal) ⟨0, ![]⟩ .f32 0x00000000#32))) W₂)
      (broadcastInDim ⟨2, ![50000, 100]⟩ ![0, 1] hrowsN100 (broadcastInDim ⟨2, ![1, 100]⟩ ![1] hrow100 B₂)))
    (broadcastInDim ⟨2, ![50000, 100]⟩ ![] hzeroN100 (constant (F := Ideal) ⟨0, ![]⟩ .f32 0x00000000#32))

/-- The node update with 64 hidden units. -/
def upd64 (A : FVec Ideal ⟨2, ![50000, 100]⟩ .f32) (W₁ : FVec Ideal ⟨2, ![100, 64]⟩ .f32) (B₁ : FVec Ideal ⟨1, ![64]⟩ .f32)
    (W₂ : FVec Ideal ⟨2, ![64, 100]⟩ .f32) (B₂ : FVec Ideal ⟨1, ![100]⟩ .f32) : FVec Ideal ⟨2, ![50000, 100]⟩ .f32 :=
  maximumf
    (addf
      (Host.dotGeneral (F := Ideal) (DotDims.plain 50000 64 100) none
        (maximumf
          (addf (Host.dotGeneral (F := Ideal) (DotDims.plain 50000 100 64) none A W₁)
            (broadcastInDim ⟨2, ![50000, 64]⟩ ![0, 1] hrowsN64 (broadcastInDim ⟨2, ![1, 64]⟩ ![1] hrow64 B₁)))
          (broadcastInDim ⟨2, ![50000, 64]⟩ ![] hzeroN64 (constant (F := Ideal) ⟨0, ![]⟩ .f32 0x00000000#32))) W₂)
      (broadcastInDim ⟨2, ![50000, 100]⟩ ![0, 1] hrowsN100 (broadcastInDim ⟨2, ![1, 100]⟩ ![1] hrow100 B₂)))
    (broadcastInDim ⟨2, ![50000, 100]⟩ ![] hzeroN100 (constant (F := Ideal) ⟨0, ![]⟩ .f32 0x00000000#32))

end Cert.KernelIdeal.KValue

end
-- ==== Proof.KNet.lean ====
/-
  The whole network as one function of the argument arrays, in the host's spelling.

  One convolution: gather the node features at every edge's target (`rowsAt x dst`) and source (`rowsAt x src`),
  apply the message layer to them and the edge features, sum the messages at their target nodes (`segSum dst`), add
  the node's own features and apply the node update. The network is two convolutions, the second on the first's
  result, with 100 and 64 hidden units in the update. An index is read the way the host reads it: a negative index
  counts from the end (50000 is added to it) before the gather clamps it into range; the scatter-add drops
  out-of-range rows.
-/
import proofs.«113108_j87514253623335_1_alg».proof.Proof.Gen.KernelIdeal
import proofs.«113108_j87514253623335_1_alg».proof.Proof.KSpec

noncomputable section

namespace Cert.KernelIdeal.KValue

open Cert.KernelIdeal Cert.KernelIdeal.Gen Idealize.ShloMosaic

/-- Every edge's source node: row 0 of the edge list. -/
def srcOf (e : IVec S2x800000 32) : IVec S800000 32 :=
  shapeCast S800000 (extractStridedSlice S1x800000 ![0, 0] e slices_S2x800000_S1x800000_0_0) shapeCasts_S1x800000_S800000

/-- Every edge's target node: row 1 of the edge list. -/
def dstOf (e : IVec S2x800000 32) : IVec S800000 32 :=
  shapeCast S800000 (extractStridedSlice S1x800000 ![1, 0] e slices_S2x800000_S1x800000_1_0) shapeCasts_S1x800000_S800000

/-- The rows of x at the given nodes, one per edge. -/
def rowsAt (x : FVec Ideal S50000x100 .f32) (ix : IVec S800000 32) : FVec Ideal S800000x100 .f32 :=
  Host.gather gather_S50000x100_S800000x1_S800000x100_1_0_n_n_0_1_1100 x
    (broadcastInDim S800000x1 ![0] bcast_S800000_S800000x1_0
      (select (cmpi .slt ix (broadcastInDim S800000 ![] bcast_S_S800000 (constantI S_ 32 0#32)))
        (addi ix (broadcastInDim S800000 ![] bcast_S_S800000 (constantI S_ 32 50000#32))) ix))

/-- The per-edge rows u summed at the given nodes, from zero. -/
def segSum (ix : IVec S800000 32) (u : FVec Ideal S800000x100 .f32) : FVec Ideal S50000x100 .f32 :=
  Host.scatterAdd scatter_S50000x100_S800000x1_S800000x100_1_0_0_1
    (broadcastInDim S50000x100 ![] bcast_S_S50000x100 (constant (F := Ideal) S_ .f32 0x00000000#32))
    (broadcastInDim S800000x1 ![0] bcast_S800000_S800000x1_0 ix) u

/-- What one convolution feeds its node update: the aggregated messages plus the node features. -/
def aggPlus (x : FVec Ideal S50000x100 .f32) (e : IVec S2x800000 32) (ea : FVec Ideal S800000x100 .f32)
    (W : FVec Ideal S300x100 .f32) (B : FVec Ideal S100 .f32) : FVec Ideal S50000x100 .f32 :=
  addf (segSum (dstOf e) (msg (rowsAt x (dstOf e)) ea (rowsAt x (srcOf e)) W B)) x

/-- The network: two convolutions. -/
def net (a0 : FVec Ideal S50000x100 .f32) (a1 : IVec S2x800000 32) (a2 : FVec Ideal S800000x100 .f32)
    (a3 : FVec Ideal S300x100 .f32) (a4 : FVec Ideal S100 .f32) (a5 : FVec Ideal S100x100 .f32) (a6 : FVec Ideal S100 .f32)
    (a7 : FVec Ideal S100x100 .f32) (a8 : FVec Ideal S100 .f32) (a9 : FVec Ideal S300x100 .f32) (a10 : FVec Ideal S100 .f32)
    (a11 : FVec Ideal S100x64 .f32) (a12 : FVec Ideal S64 .f32) (a13 : FVec Ideal S64x100 .f32) (a14 : FVec Ideal S100 .f32) :
    FVec Ideal S50000x100 .f32 :=
  upd64 (aggPlus (upd100 (aggPlus a0 a1 a2 a3 a4) a5 a6 a7 a8) a1 a2 a9 a10) a11 a12 a13 a14

end Cert.KernelIdeal.KValue

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«113108_j87514253623335_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«113108_j87514253623335_1_alg».proof.Proof.LibMatmulPlain
import proofs.«113108_j87514253623335_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibConcatCols3.lean ====
/-
  Three matrices with the same number of rows joined side by side, read at an entry.

  An `[n, a]`, an `[n, b]` and an `[n, c]` matrix joined along the columns into `[n, t]`: the entry at `(p, q)` is
  the first matrix at `(p, q)` for `q < a`, the second at `(p, q - a)` for `a ≤ q < a + b`, and the third at
  `(p, q - a - b)` from there on. The column is given with its position inside its piece (`q = k`, `q = a + k`,
  `q = a + b + k`), so no subtraction appears. Arbitrary extents and element type.
-/
import Idealize.ShloMosaic.Lib.Pipeline.Value
import Idealize.ShloMosaic.Lib.ValueIdx

noncomputable section

namespace Idealize.ShloMosaic.ConcatCols3

open Idealize.ShloMosaic Idealize.ShloMosaic.ValueIdx

variable {α : Type} {n a b c t : ℕ}

/-- A column among the first `a` reads the first matrix. -/
theorem concat3_left (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), (⟨2, ![n, b]⟩ : Shape), (⟨2, ![n, c]⟩ : Shape)] (⟨2, ![n, t]⟩ : Shape) 1)
    (p : Fin n) (q : Fin t) (k : Fin a) (hq : q.val = k.val) :
    concatenate (⟨2, ![n, t]⟩ : Shape) 1
      [⟨(⟨2, ![n, a]⟩ : Shape), x₁⟩, ⟨(⟨2, ![n, b]⟩ : Shape), x₂⟩, ⟨(⟨2, ![n, c]⟩ : Shape), x₃⟩] h (ix2 p q)
      = x₁ (ix2 p k) :=
  concatenate_apply_piece (t := (⟨2, ![n, t]⟩ : Shape)) 1 [⟨(⟨2, ![n, a]⟩ : Shape), x₁⟩, ⟨(⟨2, ![n, b]⟩ : Shape), x₂⟩, ⟨(⟨2, ![n, c]⟩ : Shape), x₃⟩] h (ix2 p q) 0
    (by show 0 < 3; omega) (⟨2, ![n, a]⟩ : Shape) x₁ rfl rfl 0 rfl (ix2 p k)
    (fun ax hax => by match ax with | ⟨0, _⟩ => rfl | ⟨1, _⟩ => exact absurd rfl hax)
    (by show 0 + k.val = q.val; omega)

/-- A column among the next `b` reads the second matrix. -/
theorem concat3_mid (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), (⟨2, ![n, b]⟩ : Shape), (⟨2, ![n, c]⟩ : Shape)] (⟨2, ![n, t]⟩ : Shape) 1)
    (p : Fin n) (q : Fin t) (k : Fin b) (hq : q.val = a + k.val) :
    concatenate (⟨2, ![n, t]⟩ : Shape) 1
      [⟨(⟨2, ![n, a]⟩ : Shape), x₁⟩, ⟨(⟨2, ![n, b]⟩ : Shape), x₂⟩, ⟨(⟨2, ![n, c]⟩ : Shape), x₃⟩] h (ix2 p q)
      = x₂ (ix2 p k) :=
  concatenate_apply_piece (t := (⟨2, ![n, t]⟩ : Shape)) 1 [⟨(⟨2, ![n, a]⟩ : Shape), x₁⟩, ⟨(⟨2, ![n, b]⟩ : Shape), x₂⟩, ⟨(⟨2, ![n, c]⟩ : Shape), x₃⟩] h (ix2 p q) 1
    (by show 1 < 3; omega) (⟨2, ![n, b]⟩ : Shape) x₂ rfl rfl a (Nat.add_zero a) (ix2 p k)
    (fun ax hax => by match ax with | ⟨0, _⟩ => rfl | ⟨1, _⟩ => exact absurd rfl hax)
    (by show a + k.val = q.val; omega)

/-- A column among the last `c` reads the third matrix. -/
theorem concat3_right (x₁ : (⟨2, ![n, a]⟩ : Shape).Idx → α) (x₂ : (⟨2, ![n, b]⟩ : Shape).Idx → α)
    (x₃ : (⟨2, ![n, c]⟩ : Shape).Idx → α)
    (h : Shape.Concatenates [(⟨2, ![n, a]⟩ : Shape), (⟨2, ![n, b]⟩ : Shape), (⟨2, ![n, c]⟩ : Shape)] (⟨2, ![n, t]⟩ : Shape) 1)
    (p : Fin n) (q : Fin t) (k : Fin c) (hq : q.val = a + b + k.val) :
    concatenate (⟨2, ![n, t]⟩ : Shape) 1
      [⟨(⟨2, ![n, a]⟩ : Shape), x₁⟩, ⟨(⟨2, ![n, b]⟩ : Shape), x₂⟩, ⟨(⟨2, ![n, c]⟩ : Shape), x₃⟩] h (ix2 p q)
      = x₃ (ix2 p k) :=
  concatenate_apply_piece (t := (⟨2, ![n, t]⟩ : Shape)) 1 [⟨(⟨2, ![n, a]⟩ : Shape), x₁⟩, ⟨(⟨2, ![n, b]⟩ : Shape), x₂⟩, ⟨(⟨2, ![n, c]⟩ : Shape), x₃⟩] h (ix2 p q) 2
    (by show 2 < 3; omega) (⟨2, ![n, c]⟩ : Shape) x₃ rfl rfl (a + b)
    (by show a + (b + 0) = a + b; rw [Nat.add_zero]) (ix2 p k)
    (fun ax hax => by match ax with | ⟨0, _⟩ => rfl | ⟨1, _⟩ => exact absurd rfl hax)
    (by show a + b + k.val = q.val; omega)

end Idealize.ShloMosaic.ConcatCols3

end
-- ==== Proof.LibMessageLayers.lean ====
/-
  Two layers of a message-passing network, read at one entry of a block of rows, over the extended reals.

  The MESSAGE layer takes three feature matrices XI [E, a], EA [E, b], XJ [E, c], joins them side by side into
  [E, a + b + c], multiplies by a weight matrix W [a + b + c, N], adds a bias and clamps at zero:
      relu (Σ_{k < a+b+c} cat (R, k) · W (k, q) + B (q)).
  Written for the matrix unit it is three products, one per piece, each against its own band of rows of W, each
  into a zero accumulator, added up, plus the bias held as one row, clamped at zero:
      relu (((Σ_{k<a} xi (r,k) · w₁ (k,q) + Σ_{k<b} ea (r,k) · w₂ (k,q)) + Σ_{k<c} xj (r,k) · w₃ (k,q)) + b₁ (0,q)).
  The two agree when row r of the blocks is row R of the whole matrices and w₁, w₂, w₃ are the three bands of W:
  a sum of a + b + c consecutive terms is the sum of its first a, its next b and its last c terms, which holds in any
  commutative monoid, so no finiteness is asked of the entries.

  The UPDATE layer is a two-layer perceptron with a zero clamp after each layer,
      relu (Σ_j relu (Σ_k A (R,k) · W₁ (k,j) + B₁ (j)) · W₂ (j,q) + B₂ (q)),
  written on the matrix unit with its operands narrowed to a shorter float format (the identity here) and the biases
  held as one-row matrices, and on the host with dot_general and broadcast biases. Row r of the block's result is
  row R of the whole result when row r of the block is row R of the whole first operand: the two sides are the same
  expression.

  The extents are arbitrary throughout.
-/
import proofs.«113108_j87514253623335_1_alg».proof.Proof.LibMatmulPlain
import proofs.«113108_j87514253623335_1_alg».proof.Proof.LibHostDotPlain
import proofs.«113108_j87514253623335_1_alg».proof.Proof.LibDense
import proofs.«113108_j87514253623335_1_alg».proof.Proof.LibConcatCols3
import Idealize.ShloMosaic.Lib.ValueLayout
import Idealize.ShloMosaic.Lib.Pipeline.Value

noncomputable section

open scoped BigOperators

namespace Idealize.ShloMosaic.MessageLayers

open Idealize.ShloMosaic Idealize.ShloMosaic.ValueIdx

/-- A sum of a + b + c consecutive terms is the sum of the first a, the next b and the last c. -/
theorem sum_three {α : Type} [AddCommMonoid α] (a b c : ℕ) (f : Fin (a + b + c) → α) :
    ∑ k : Fin (a + b + c), f k
      = (∑ k : Fin a, f ⟨k.val, by have := k.isLt; omega⟩ + ∑ k : Fin b, f ⟨a + k.val, by have := k.isLt; omega⟩)
        + ∑ k : Fin c, f ⟨a + b + k.val, by have := k.isLt; omega⟩ := by
  rw [Fin.sum_univ_add, Fin.sum_univ_add]
  rfl

/-- A scalar constant spread over any shape reads the constant's value everywhere. -/
theorem splat_apply {t : Shape} (h0 : (⟨0, ![]⟩ : Shape).BroadcastsInDim t ![]) (w : BitVec FTy.f32.bits) (i : t.Idx) :
    broadcastInDim t ![] h0 (constant (F := Ideal) ⟨0, ![]⟩ .f32 w) i = FloatOps.ofBits (F := Ideal) .f32 w :=
  broadcastInDim_apply ![] h0 _ i ix0 (fun a => a.elim0)

/-- The clamp at zero, spelt with a splat scalar on one side and with a broadcast scalar constant on the other, at
    entries that hold equal values. -/
theorem relu_rows {s s' : Shape} (u : FVec Ideal s .f32) (U : FVec Ideal s' .f32)
    (h0 : (⟨0, ![]⟩ : Shape).BroadcastsInDim s' ![]) (i : s.Idx) (I : s'.Idx) (h : u i = U I) :
    maximumf u (broadcast s (FloatOps.ofBits (F := Ideal) .f32 0x00000000#32)) i
      = maximumf U (broadcastInDim s' ![] h0 (constant (F := Ideal) ⟨0, ![]⟩ .f32 0x00000000#32)) I := by
  show max (u i) (FloatOps.ofBits (F := Ideal) .f32 0x00000000#32)
      = max (U I) (broadcastInDim s' ![] h0 (constant (F := Ideal) ⟨0, ![]⟩ .f32 0x00000000#32) I)
  rw [splat_apply, h]

section Message

variable {E e a b c t N : ℕ}

/-- Row r of the message layer computed on blocks, piece by piece, is row R of the message layer computed on the
    whole joined matrix. -/
theorem message_rows
    (XI : FVec Ideal ⟨2, ![E, a]⟩ .f32) (EA : FVec Ideal ⟨2, ![E, b]⟩ .f32) (XJ : FVec Ideal ⟨2, ![E, c]⟩ .f32)
    (W : FVec Ideal ⟨2, ![t, N]⟩ .f32) (B : FVec Ideal ⟨1, ![N]⟩ .f32)
    (xi : FVec Ideal ⟨2, ![e, a]⟩ .f32) (ea : FVec Ideal ⟨2, ![e, b]⟩ .f32) (xj : FVec Ideal ⟨2, ![e, c]⟩ .f32)
    (w₁ : FVec Ideal ⟨2, ![a, N]⟩ .f32) (w₂ : FVec Ideal ⟨2, ![b, N]⟩ .f32) (w₃ : FVec Ideal ⟨2, ![c, N]⟩ .f32)
    (b₁ : FVec Ideal ⟨2, ![1, N]⟩ .f32)
    (hn : FTy.bf16.bits < FTy.f32.bits)
    (hb : (⟨2, ![1, N]⟩ : Shape).Broadcasts ⟨2, ![e, N]⟩)
    (hcat : Shape.Concatenates [(⟨2, ![E, a]⟩ : Shape), (⟨2, ![E, b]⟩ : Shape), (⟨2, ![E, c]⟩ : Shape)] (⟨2, ![E, t]⟩ : Shape) 1)
    (h1 : (⟨1, ![N]⟩ : Shape).BroadcastsInDim ⟨2, ![1, N]⟩ ![1])
    (h2 : (⟨2, ![1, N]⟩ : Shape).BroadcastsInDim ⟨2, ![E, N]⟩ ![0, 1])
    (h0 : (⟨0, ![]⟩ : Shape).BroadcastsInDim ⟨2, ![E, N]⟩ ![])
    (ht : t = a + b + c) (r : Fin e) (R : Fin E) (q : Fin N)
    (hxi : ∀ k : Fin a, xi (ix2 r k) = XI (ix2 R k)) (hea : ∀ k : Fin b, ea (ix2 r k) = EA (ix2 R k))
    (hxj : ∀ k : Fin c, xj (ix2 r k) = XJ (ix2 R k))
    (hw₁ : ∀ k : Fin a, w₁ (ix2 k q) = W (ix2 (⟨k.val, by have := k.isLt; omega⟩ : Fin t) q))
    (hw₂ : ∀ k : Fin b, w₂ (ix2 k q) = W (ix2 (⟨a + k.val, by have := k.isLt; omega⟩ : Fin t) q))
    (hw₃ : ∀ k : Fin c, w₃ (ix2 k q) = W (ix2 (⟨a + b + k.val, by have := k.isLt; omega⟩ : Fin t) q))
    (hb₁ : b₁ (ix2 (0 : Fin 1) q) = B (ix1 q)) :
    maximumf
        (addf
          (addf
            (addf
              (matmul (DotDims.plain e a N) none (truncf .bf16 xi hn) (truncf .bf16 w₁ hn)
                (constant (F := Ideal) ⟨2, ![e, N]⟩ .f32 0x00000000#32))
              (matmul (DotDims.plain e b N) none (truncf .bf16 ea hn) (truncf .bf16 w₂ hn)
                (constant (F := Ideal) ⟨2, ![e, N]⟩ .f32 0x00000000#32)))
            (matmul (DotDims.plain e c N) none (truncf .bf16 xj hn) (truncf .bf16 w₃ hn)
              (constant (F := Ideal) ⟨2, ![e, N]⟩ .f32 0x00000000#32)))
          (broadcastTo ⟨2, ![e, N]⟩ b₁ hb))
        (broadcast ⟨2, ![e, N]⟩ (FloatOps.ofBits (F := Ideal) .f32 0x00000000#32)) (ix2 r q)
      = maximumf
          (addf
            (Host.dotGeneral (F := Ideal) (DotDims.plain E t N) none
              (concatenate (⟨2, ![E, t]⟩ : Shape) 1
                [⟨(⟨2, ![E, a]⟩ : Shape), XI⟩, ⟨(⟨2, ![E, b]⟩ : Shape), EA⟩, ⟨(⟨2, ![E, c]⟩ : Shape), XJ⟩] hcat) W)
            (broadcastInDim ⟨2, ![E, N]⟩ ![0, 1] h2 (broadcastInDim ⟨2, ![1, N]⟩ ![1] h1 B)))
          (broadcastInDim ⟨2, ![E, N]⟩ ![] h0 (constant (F := Ideal) ⟨0, ![]⟩ .f32 0x00000000#32)) (ix2 R q) := by
  subst ht
  refine relu_rows _ _ h0 _ _ ?_
  have e1 : matmul (DotDims.plain e a N) none (truncf .bf16 xi hn) (truncf .bf16 w₁ hn)
        (constant (F := Ideal) ⟨2, ![e, N]⟩ .f32 0x00000000#32) (ix2 r q)
      = ∑ k : Fin a, XI (ix2 R k) * W (ix2 (⟨k.val, by have := k.isLt; omega⟩ : Fin (a + b + c)) q) := by
    rw [MatmulPlain.matmul_zero_apply]
    refine Finset.sum_congr rfl fun k _ => ?_
    show xi (ix2 r k) * w₁ (ix2 k q) = _
    rw [hxi k, hw₁ k]
  have e2 : matmul (DotDims.plain e b N) none (truncf .bf16 ea hn) (truncf .bf16 w₂ hn)
        (constant (F := Ideal) ⟨2, ![e, N]⟩ .f32 0x00000000#32) (ix2 r q)
      = ∑ k : Fin b, EA (ix2 R k) * W (ix2 (⟨a + k.val, by have := k.isLt; omega⟩ : Fin (a + b + c)) q) := by
    rw [MatmulPlain.matmul_zero_apply]
    refine Finset.sum_congr rfl fun k _ => ?_
    show ea (ix2 r k) * w₂ (ix2 k q) = _
    rw [hea k, hw₂ k]
  have e3 : matmul (DotDims.plain e c N) none (truncf .bf16 xj hn) (truncf .bf16 w₃ hn)
        (constant (F := Ideal) ⟨2, ![e, N]⟩ .f32 0x00000000#32) (ix2 r q)
      = ∑ k : Fin c, XJ (ix2 R k) * W (ix2 (⟨a + b + k.val, by have := k.isLt; omega⟩ : Fin (a + b + c)) q) := by
    rw [MatmulPlain.matmul_zero_apply]
    refine Finset.sum_congr rfl fun k _ => ?_
    show xj (ix2 r k) * w₃ (ix2 k q) = _
    rw [hxj k, hw₃ k]
  have ed : Host.dotGeneral (F := Ideal) (DotDims.plain E (a + b + c) N) none
        (concatenate (⟨2, ![E, a + b + c]⟩ : Shape) 1
          [⟨(⟨2, ![E, a]⟩ : Shape), XI⟩, ⟨(⟨2, ![E, b]⟩ : Shape), EA⟩, ⟨(⟨2, ![E, c]⟩ : Shape), XJ⟩] hcat) W (ix2 R q)
      = (∑ k : Fin a, XI (ix2 R k) * W (ix2 (⟨k.val, by have := k.isLt; omega⟩ : Fin (a + b + c)) q)
          + ∑ k : Fin b, EA (ix2 R k) * W (ix2 (⟨a + k.val, by have := k.isLt; omega⟩ : Fin (a + b + c)) q))
        + ∑ k : Fin c, XJ (ix2 R k) * W (ix2 (⟨a + b + k.val, by have := k.isLt; omega⟩ : Fin (a + b + c)) q) := by
    rw [HostDotPlain.dotGeneral_apply, sum_three]
    congr 1
    · congr 1
      · refine Finset.sum_congr rfl fun k _ => ?_
        congr 1
        exact ConcatCols3.concat3_left XI EA XJ hcat R _ k rfl
      · refine Finset.sum_congr rfl fun k _ => ?_
        congr 1
        exact ConcatCols3.concat3_mid XI EA XJ hcat R _ k rfl
    · refine Finset.sum_congr rfl fun k _ => ?_
      congr 1
      exact ConcatCols3.concat3_right XI EA XJ hcat R _ k rfl
  show ((matmul (DotDims.plain e a N) none (truncf .bf16 xi hn) (truncf .bf16 w₁ hn)
            (constant (F := Ideal) ⟨2, ![e, N]⟩ .f32 0x00000000#32) (ix2 r q)
          + matmul (DotDims.plain e b N) none (truncf .bf16 ea hn) (truncf .bf16 w₂ hn)
            (constant (F := Ideal) ⟨2, ![e, N]⟩ .f32 0x00000000#32) (ix2 r q))
        + matmul (DotDims.plain e c N) none (truncf .bf16 xj hn) (truncf .bf16 w₃ hn)
            (constant (F := Ideal) ⟨2, ![e, N]⟩ .f32 0x00000000#32) (ix2 r q))
      + broadcastTo ⟨2, ![e, N]⟩ b₁ hb (ix2 r q)
    = Host.dotGeneral (F := Ideal) (DotDims.plain E (a + b + c) N) none
        (concatenate (⟨2, ![E, a + b + c]⟩ : Shape) 1
          [⟨(⟨2, ![E, a]⟩ : Shape), XI⟩, ⟨(⟨2, ![E, b]⟩ : Shape), EA⟩, ⟨(⟨2, ![E, c]⟩ : Shape), XJ⟩] hcat) W (ix2 R q)
      + broadcastInDim ⟨2, ![E, N]⟩ ![0, 1] h2 (broadcastInDim ⟨2, ![1, N]⟩ ![1] h1 B) (ix2 R q)
  rw [e1, e2, e3, ed, broadcastTo_1b_ab_apply, Dense.bias_rows_apply, hb₁]

end Message

section Update

variable {M m K H N : ℕ}

/-- Row r of the update layer computed on a block is row R of the update layer computed on the whole matrix. -/
theorem update_rows
    (A : FVec Ideal ⟨2, ![M, K]⟩ .f32) (W₁ : FVec Ideal ⟨2, ![K, H]⟩ .f32) (B₁ : FVec Ideal ⟨1, ![H]⟩ .f32)
    (W₂ : FVec Ideal ⟨2, ![H, N]⟩ .f32) (B₂ : FVec Ideal ⟨1, ![N]⟩ .f32)
    (x : FVec Ideal ⟨2, ![m, K]⟩ .f32) (w₁ : FVec Ideal ⟨2, ![K, H]⟩ .f32) (b₁ : FVec Ideal ⟨2, ![1, H]⟩ .f32)
    (w₂ : FVec Ideal ⟨2, ![H, N]⟩ .f32) (b₂ : FVec Ideal ⟨2, ![1, N]⟩ .f32)
    (hn : FTy.bf16.bits < FTy.f32.bits)
    (c1 : (⟨2, ![1, H]⟩ : Shape).Broadcasts ⟨2, ![m, H]⟩) (c2 : (⟨2, ![1, N]⟩ : Shape).Broadcasts ⟨2, ![m, N]⟩)
    (g1 : (⟨1, ![H]⟩ : Shape).BroadcastsInDim ⟨2, ![1, H]⟩ ![1])
    (g2 : (⟨2, ![1, H]⟩ : Shape).BroadcastsInDim ⟨2, ![M, H]⟩ ![0, 1])
    (g0 : (⟨0, ![]⟩ : Shape).BroadcastsInDim ⟨2, ![M, H]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (r : Fin m) (R : Fin M) (q : Fin N)
    (hx : ∀ k : Fin K, x (ix2 r k) = A (ix2 R k))
    (hw₁ : ∀ (k : Fin K) (j : Fin H), w₁ (ix2 k j) = W₁ (ix2 k j))
    (hb₁ : ∀ j : Fin H, b₁ (ix2 (0 : Fin 1) j) = B₁ (ix1 j))
    (hw₂ : ∀ j : Fin H, w₂ (ix2 j q) = W₂ (ix2 j q))
    (hb₂ : b₂ (ix2 (0 : Fin 1) q) = B₂ (ix1 q)) :
    maximumf
        (addf
          (matmul (DotDims.plain m H N) none
            (truncf .bf16
              (maximumf
                (addf
                  (matmul (DotDims.plain m K H) none (truncf .bf16 x hn) (truncf .bf16 w₁ hn)
                    (constant (F := Ideal) ⟨2, ![m, H]⟩ .f32 0x00000000#32))
                  (broadcastTo ⟨2, ![m, H]⟩ b₁ c1))
                (broadcast ⟨2, ![m, H]⟩ (FloatOps.ofBits (F := Ideal) .f32 0x00000000#32))) hn)
            (truncf .bf16 w₂ hn) (constant (F := Ideal) ⟨2, ![m, N]⟩ .f32 0x00000000#32))
          (broadcastTo ⟨2, ![m, N]⟩ b₂ c2))
        (broadcast ⟨2, ![m, N]⟩ (FloatOps.ofBits (F := Ideal) .f32 0x00000000#32)) (ix2 r q)
      = maximumf
          (addf
            (Host.dotGeneral (F := Ideal) (DotDims.plain M H N) none
              (maximumf
                (addf (Host.dotGeneral (F := Ideal) (DotDims.plain M K H) none A W₁)
                  (broadcastInDim ⟨2, ![M, H]⟩ ![0, 1] g2 (broadcastInDim ⟨2, ![1, H]⟩ ![1] g1 B₁)))
                (broadcastInDim ⟨2, ![M, H]⟩ ![] g0 (constant (F := Ideal) ⟨0, ![]⟩ .f32 0x00000000#32))) W₂)
            (broadcastInDim ⟨2, ![M, N]⟩ ![0, 1] h2 (broadcastInDim ⟨2, ![1, N]⟩ ![1] h1 B₂)))
          (broadcastInDim ⟨2, ![M, N]⟩ ![] h0 (constant (F := Ideal) ⟨0, ![]⟩ .f32 0x00000000#32)) (ix2 R q) := by
  refine relu_rows _ _ h0 _ _ ?_
  rw [Dense.matmul_bias_apply, Dense.dot_bias_apply, hb₂]
  refine congrArg (fun z => z + B₂ (ix1 q)) ?_
  refine Finset.sum_congr rfl fun j _ => ?_
  simp only [truncf_apply]
  rw [hw₂ j]
  refine congrArg (fun z => z * W₂ (ix2 j q)) ?_
  refine relu_rows _ _ g0 _ _ ?_
  rw [Dense.matmul_bias_apply, Dense.dot_bias_apply, hb₁ j]
  refine congrArg (fun z => z + B₁ (ix1 j)) ?_
  refine Finset.sum_congr rfl fun k _ => ?_
  simp only [truncf_apply]
  rw [hx k, hw₁ k j]

end Update

end Idealize.ShloMosaic.MessageLayers

end
-- ==== Proof.KEdge2.lean ====
/-
  What the second message kernel leaves in its result array.

  The kernel runs over 200 blocks of 4000 edges. At block t it loads rows 4000·t … 4000·t + 3999 of the three
  [800000, 100] feature arrays, the three [100, 100] weight matrices whole and the one-row bias, and stores
  relu (xi · w₁ + ea · w₂ + xj · w₃ + b) into the same rows of the result. When the three weight matrices are the
  three bands of rows of one [300, 100] matrix W and the bias row is a vector B, each stored entry is the message
  layer `msg` of the whole arrays at that entry (a 300-term row-by-column sum cut into three runs of 100), and the
  200 blocks tile the result, so the result array ends at `msg` of the arrays the kernel found on entry.
  Stated for any contents V of the buffers at the kernel's entry.
-/
import proofs.«113108_j87514253623335_1_alg».proof.Proof.KernelIdealFrameP
import proofs.«113108_j87514253623335_1_alg».proof.Proof.LibMessageLayers
import proofs.«113108_j87514253623335_1_alg».proof.Proof.KSpec
import Idealize.ShloMosaic.Lib.Pipeline.Value
import Idealize.ShloMosaic.Lib.ValueIdx
import Idealize.ShloMosaic.Lib.ValueLayout

set_option maxRecDepth 16384

noncomputable section

namespace Cert.KernelIdeal.KValue.Edge2

open Cert.KernelIdeal Cert.KernelIdeal.Gen Cert.KernelIdeal.GenP Cert.KernelIdeal.KValue
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at row r of a block is the message layer at row R of the whole arrays, when row r of
    each loaded feature block is row R of its array, the loaded weight matrices are the three bands of W and the
    loaded bias row is B. -/
theorem pay_at (x0 x1 x2 : Vec Ideal S4000x100 .f32) (x3 x4 x5 : Vec Ideal S100x100 .f32) (x6 : Vec Ideal S1x100 .f32)
    (XI EA XJ : FVec Ideal S800000x100 .f32) (W : FVec Ideal S300x100 .f32) (B : FVec Ideal S100 .f32)
    (r : Fin 4000) (R : Fin 800000) (q : Fin 100)
    (h0 : ∀ k : Fin 100, x0 (ix2 r k) = XI (ix2 R k)) (h1 : ∀ k : Fin 100, x1 (ix2 r k) = EA (ix2 R k))
    (h2 : ∀ k : Fin 100, x2 (ix2 r k) = XJ (ix2 R k))
    (h3 : ∀ k : Fin 100, x3 (ix2 k q) = W (ix2 (⟨k.val, by have := k.isLt; omega⟩ : Fin 300) q))
    (h4 : ∀ k : Fin 100, x4 (ix2 k q) = W (ix2 (⟨100 + k.val, by have := k.isLt; omega⟩ : Fin 300) q))
    (h5 : ∀ k : Fin 100, x5 (ix2 k q) = W (ix2 (⟨100 + 100 + k.val, by have := k.isLt; omega⟩ : Fin 300) q))
    (h6 : x6 (ix2 (0 : Fin 1) q) = B (ix1 q)) :
    k2_pay1 x0 x1 x2 x3 x4 x5 x6 (ix2 r q) = msg XI EA XJ W B (ix2 R q) := by
  unfold k2_pay1 msg
  exact MessageLayers.message_rows (E := 800000) (e := 4000) (a := 100) (b := 100) (c := 100) (t := 300) (N := 100)
    XI EA XJ W B (shapeCast S4000x100 x0 shapeCasts_S4000x100_S4000x100) x1 (shapeCast S4000x100 x2 shapeCasts_S4000x100_S4000x100)
    (shapeCast S100x100 x3 shapeCasts_S100x100_S100x100) (shapeCast S100x100 x4 shapeCasts_S100x100_S100x100)
    (shapeCast S100x100 x5 shapeCasts_S100x100_S100x100) (shapeCast S1x100 x6 shapeCasts_S1x100_S1x100)
    bitsLt_bf16_f32 broadcasts_S1x100_S4000x100 hcat hrow100 hrowsE hzeroE rfl r R q
    (fun k => by rw [shapeCast_self]; exact h0 k) h1 (fun k => by rw [shapeCast_self]; exact h2 k)
    (fun k => by rw [shapeCast_self]; exact h3 k) (fun k => by rw [shapeCast_self]; exact h4 k)
    (fun k => by rw [shapeCast_self]; exact h5 k) (by rw [shapeCast_self]; exact h6)

/-- The printed index maps, decided over the grid: the feature windows and the result window are at block row t,
    the weight and bias windows at their one block. -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

variable (V : (c : Dev nD) → (b : Ref sig .tc) → Buf (Elt Ideal) ((c : Thread nD τ).loc b))

/-- What point t writes back is block t of the message layer of the arrays found on entry. -/
theorem flushed_eq (c : Dev nD) (t : Fin cfg2.N) (W : FVec Ideal S300x100 .f32) (B : FVec Ideal S100 .f32)
    (hW1 : ∀ k q : Fin 100, V c main_v43 (ix2 k q) = W (ix2 (⟨k.val, by have := k.isLt; omega⟩ : Fin 300) q))
    (hW2 : ∀ k q : Fin 100, V c main_v44 (ix2 k q) = W (ix2 (⟨100 + k.val, by have := k.isLt; omega⟩ : Fin 300) q))
    (hW3 : ∀ k q : Fin 100, V c main_v45 (ix2 k q) = W (ix2 (⟨100 + 100 + k.val, by have := k.isLt; omega⟩ : Fin 300) q))
    (hB : ∀ q : Fin 100, V c main_v46 (ix2 (0 : Fin 1) q) = B (ix1 q)) :
    (dat2 V c).flushed 7 t
      = ((cfg2.win 7).blk t).view.read (Elt Ideal) (msg (V c main_v35) (V c main_arg2) (V c main_v42) W B) := by
  show (cfg2.win 7).cut (grid2.coords t) ((dat2 V c).after 7 t) = _
  rw [after2_7]
  unfold out2_7
  rw [View.canon_unit_zero hz]
  simp only [View.ld_unit_zero (S := S4000x100) hz, View.ld_unit_zero (S := S100x100) hz, View.ld_unit_zero (S := S1x100) hz]
  obtain ⟨e00, e01, e10, e11, e20, e21, e30, e31, e40, e41, e50, e51, e60, e61, e70, e71⟩ := idx t
  have ht : t.val < 200 := lt_of_lt_of_eq t.isLt N_2
  funext j
  obtain ⟨r, q, rfl⟩ : ∃ (r : Fin 4000) (q : Fin 100), j = ix2 r q := ⟨j 0, j 1, eq_ix2 j⟩
  have hr : r.val < 4000 := r.isLt
  have hq : q.val < 100 := q.isLt
  have hI : ((cfg2.win 7).blk t).view.emb (ix2 r q) = ix2 (⟨t.val * 4000 + r.val, by omega⟩ : Fin 800000) q := by
    funext a; apply Fin.ext
    match a with
    | ⟨0, _⟩ => show win2_7.index t (0 : Fin 2) * 4000 + 1 * r.val = t.val * 4000 + r.val; omega
    | ⟨1, _⟩ => show win2_7.index t (1 : Fin 2) * 100 + 1 * q.val = q.val; omega
  show k2_pay1 (iblk2 V c 0 t) (iblk2 V c 1 t) (iblk2 V c 2 t) (iblk2 V c 3 t) (iblk2 V c 4 t) (iblk2 V c 5 t)
      (iblk2 V c 6 t) (ix2 r q)
    = msg (V c main_v35) (V c main_arg2) (V c main_v42) W B (((cfg2.win 7).blk t).view.emb (ix2 r q))
  rw [hI]
  refine pay_at (iblk2 V c 0 t) (iblk2 V c 1 t) (iblk2 V c 2 t) (iblk2 V c 3 t) (iblk2 V c 4 t) (iblk2 V c 5 t)
    (iblk2 V c 6 t) (V c main_v35) (V c main_arg2) (V c main_v42) W B r ⟨t.val * 4000 + r.val, by omega⟩ q ?_ ?_ ?_ ?_ ?_ ?_ ?_
  · intro k
    have hk : k.val < 100 := k.isLt
    show V c main_v35 (((cfg2.win 0).blk t).view.emb (ix2 r k)) = V c main_v35 (ix2 (⟨t.val * 4000 + r.val, by omega⟩ : Fin 800000) k)
    refine congrArg (V c main_v35) ?_
    funext a; apply Fin.ext
    match a with
    | ⟨0, _⟩ => show win2_0.index t (0 : Fin 2) * 4000 + 1 * r.val = t.val * 4000 + r.val; omega
    | ⟨1, _⟩ => show win2_0.index t (1 : Fin 2) * 100 + 1 * k.val = k.val; omega
  · intro k
    have hk : k.val < 100 := k.isLt
    show V c main_arg2 (((cfg2.win 1).blk t).view.emb (ix2 r k)) = V c main_arg2 (ix2 (⟨t.val * 4000 + r.val, by omega⟩ : Fin 800000) k)
    refine congrArg (V c main_arg2) ?_
    funext a; apply Fin.ext
    match a with
    | ⟨0, _⟩ => show win2_1.index t (0 : Fin 2) * 4000 + 1 * r.val = t.val * 4000 + r.val; omega
    | ⟨1, _⟩ => show win2_1.index t (1 : Fin 2) * 100 + 1 * k.val = k.val; omega
  · intro k
    have hk : k.val < 100 := k.isLt
    show V c main_v42 (((cfg2.win 2).blk t).view.emb (ix2 r k)) = V c main_v42 (ix2 (⟨t.val * 4000 + r.val, by omega⟩ : Fin 800000) k)
    refine congrArg (V c main_v42) ?_
    funext a; apply Fin.ext
    match a with
    | ⟨0, _⟩ => show win2_2.index t (0 : Fin 2) * 4000 + 1 * r.val = t.val * 4000 + r.val; omega
    | ⟨1, _⟩ => show win2_2.index t (1 : Fin 2) * 100 + 1 * k.val = k.val; omega
  · intro k
    have hk : k.val < 100 := k.isLt
    refine Eq.trans ?_ (hW1 k q)
    show V c main_v43 (((cfg2.win 3).blk t).view.emb (ix2 k q)) = V c main_v43 (ix2 k q)
    refine congrArg (V c main_v43) ?_
    funext a; apply Fin.ext
    match a with
    | ⟨0, _⟩ => show win2_3.index t (0 : Fin 2) * 100 + 1 * k.val = k.val; omega
    | ⟨1, _⟩ => show win2_3.index t (1 : Fin 2) * 100 + 1 * q.val = q.val; omega
  · intro k
    have hk : k.val < 100 := k.isLt
    refine Eq.trans ?_ (hW2 k q)
    show V c main_v44 (((cfg2.win 4).blk t).view.emb (ix2 k q)) = V c main_v44 (ix2 k q)
    refine congrArg (V c main_v44) ?_
    funext a; apply Fin.ext
    match a with
    | ⟨0, _⟩ => show win2_4.index t (0 : Fin 2) * 100 + 1 * k.val = k.val; omega
    | ⟨1, _⟩ => show win2_4.index t (1 : Fin 2) * 100 + 1 * q.val = q.val; omega
  · intro k
    have hk : k.val < 100 := k.isLt
    refine Eq.trans ?_ (hW3 k q)
    show V c main_v45 (((cfg2.win 5).blk t).view.emb (ix2 k q)) = V c main_v45 (ix2 k q)
    refine congrArg (V c main_v45) ?_
    funext a; apply Fin.ext
    match a with
    | ⟨0, _⟩ => show win2_5.index t (0 : Fin 2) * 100 + 1 * k.val = k.val; omega
    | ⟨1, _⟩ => show win2_5.index t (1 : Fin 2) * 100 + 1 * q.val = q.val; omega
  · refine Eq.trans ?_ (hB q)
    show V c main_v46 (((cfg2.win 6).blk t).view.emb (ix2 (0 : Fin 1) q)) = V c main_v46 (ix2 (0 : Fin 1) q)
    refine congrArg (V c main_v46) ?_
    funext a; apply Fin.ext
    match a with
    | ⟨0, _⟩ => show win2_6.index t (0 : Fin 2) * 1 + 1 * 0 = 0; omega
    | ⟨1, _⟩ => show win2_6.index t (1 : Fin 2) * 100 + 1 * q.val = q.val; omega

/-- An index of the result array is in point t's block iff each coordinate is in the block's range on its axis. -/
theorem mem_blk (t : Fin cfg2.N) (i : S800000x100.Idx) :
    i ∈ ((cfg2.win 7).blk t).view.set
      ↔ ∀ a : Fin 2, win2_7.index t a * S4000x100.size a ≤ (i a).val ∧ (i a).val < win2_7.index t a * S4000x100.size a + S4000x100.size a := by
  show i ∈ ((View.whole main_v47).slice (win2_7.rect t)).set ↔ _
  rw [View.set_slice_whole, Rect.mem_set_unit]
  exact Iff.rfl

/-- Every entry of the result array is in the block of the point its row falls in. -/
theorem cover (i : S800000x100.Idx) :
    ∃ t : Fin cfg2.N, (cfg2.win 7).flush t = true ∧ i ∈ ((cfg2.win 7).blk t).view.set := by
  have hi0 : (i 0).val < 800000 := (i 0).isLt
  have hi1 : (i 1).val < 100 := (i 1).isLt
  have hN : (i 0).val / 4000 < cfg2.N := by show (i 0).val / 4000 < grid2.N; rw [N_2]; omega
  obtain ⟨e00, e01, e10, e11, e20, e21, e30, e31, e40, e41, e50, e51, e60, e61, e70, e71⟩ := idx ⟨(i 0).val / 4000, hN⟩
  refine ⟨⟨(i 0).val / 4000, hN⟩, flush2_7 _, ?_⟩
  rw [mem_blk]
  intro a
  match a with
  | ⟨0, _⟩ =>
    show win2_7.index ⟨(i 0).val / 4000, hN⟩ (0 : Fin 2) * 4000 ≤ (i 0).val
      ∧ (i 0).val < win2_7.index ⟨(i 0).val / 4000, hN⟩ (0 : Fin 2) * 4000 + 4000
    rw [e70]
    show (i 0).val / 4000 * 4000 ≤ (i 0).val ∧ (i 0).val < (i 0).val / 4000 * 4000 + 4000
    omega
  | ⟨1, _⟩ =>
    show win2_7.index ⟨(i 0).val / 4000, hN⟩ (1 : Fin 2) * 100 ≤ (i 1).val
      ∧ (i 1).val < win2_7.index ⟨(i 0).val / 4000, hN⟩ (1 : Fin 2) * 100 + 100
    rw [e71]
    omega

/-- The result array after the kernel: the message layer of the arrays found on entry. -/
theorem final (c : Dev nD) (W : FVec Ideal S300x100 .f32) (B : FVec Ideal S100 .f32)
    (hW1 : ∀ k q : Fin 100, V c main_v43 (ix2 k q) = W (ix2 (⟨k.val, by have := k.isLt; omega⟩ : Fin 300) q))
    (hW2 : ∀ k q : Fin 100, V c main_v44 (ix2 k q) = W (ix2 (⟨100 + k.val, by have := k.isLt; omega⟩ : Fin 300) q))
    (hW3 : ∀ k q : Fin 100, V c main_v45 (ix2 k q) = W (ix2 (⟨100 + 100 + k.val, by have := k.isLt; omega⟩ : Fin 300) q))
    (hB : ∀ q : Fin 100, V c main_v46 (ix2 (0 : Fin 1) q) = B (ix1 q)) :
    (dat2 V c).arrAt 7 cfg2.N = msg (V c main_v35) (V c main_arg2) (V c main_v42) W B :=
  (dat2 V c).arrAt_eq_of_cover 7 _ (fun t _ => flushed_eq V c t W B hW1 hW2 hW3 hB) cover

end Cert.KernelIdeal.KValue.Edge2

end
-- ==== Proof.KNode3.lean ====
/-
  What the second node-update kernel leaves in its result array.

  The kernel runs over 10 blocks of 5000 nodes. At block t it loads rows 5000·t … 5000·t + 4999 of the aggregated
  messages and of the node features, the two weight matrices whole and the two one-row biases, and stores
  relu (relu ((agg + x) · w₁ + b₁) · w₂ + b₂) into the same rows of the result. Each stored entry is the update
  layer `upd64` of the whole arrays at that entry, and the 10 blocks tile the result, so the result array ends at
  `upd64` of the arrays the kernel found on entry. Stated for any contents V of the buffers at the kernel's entry.
-/
import proofs.«113108_j87514253623335_1_alg».proof.Proof.KernelIdealFrameP
import proofs.«113108_j87514253623335_1_alg».proof.Proof.LibMessageLayers
import proofs.«113108_j87514253623335_1_alg».proof.Proof.KSpec
import Idealize.ShloMosaic.Lib.Pipeline.Value
import Idealize.ShloMosaic.Lib.ValueIdx
import Idealize.ShloMosaic.Lib.ValueLayout

set_option maxRecDepth 16384

noncomputable section

namespace Cert.KernelIdeal.KValue.Node3

open Cert.KernelIdeal Cert.KernelIdeal.Gen Cert.KernelIdeal.GenP Cert.KernelIdeal.KValue
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at row r of a block is the update layer at row R of the whole arrays, when row r of the
    two loaded row blocks is row R of their arrays and the loaded weights and bias rows are the whole ones. -/
theorem pay_at (x0 x1 : Vec Ideal S5000x100 .f32) (x2 : Vec Ideal S100x64 .f32) (x3 : Vec Ideal S1x64 .f32)
    (x4 : Vec Ideal S64x100 .f32) (x5 : Vec Ideal S1x100 .f32)
    (AGG X : FVec Ideal S50000x100 .f32) (W₁ : FVec Ideal S100x64 .f32) (B₁ : FVec Ideal S64 .f32)
    (W₂ : FVec Ideal S64x100 .f32) (B₂ : FVec Ideal S100 .f32)
    (r : Fin 5000) (R : Fin 50000) (q : Fin 100)
    (h0 : ∀ k : Fin 100, x0 (ix2 r k) = AGG (ix2 R k)) (h1 : ∀ k : Fin 100, x1 (ix2 r k) = X (ix2 R k))
    (h2 : ∀ (k : Fin 100) (j : Fin 64), x2 (ix2 k j) = W₁ (ix2 k j))
    (h3 : ∀ j : Fin 64, x3 (ix2 (0 : Fin 1) j) = B₁ (ix1 j))
    (h4 : ∀ j : Fin 64, x4 (ix2 j q) = W₂ (ix2 j q)) (h5 : x5 (ix2 (0 : Fin 1) q) = B₂ (ix1 q)) :
    k3_pay1 x0 x1 x2 x3 x4 x5 (ix2 r q)
      = upd64 (addf (F := Ideal) (s := S50000x100) (φ := .f32) AGG X) W₁ B₁ W₂ B₂ (ix2 R q) := by
  unfold k3_pay1 upd64
  exact MessageLayers.update_rows (M := 50000) (m := 5000) (K := 100) (H := 64) (N := 100)
    (addf (F := Ideal) (s := S50000x100) (φ := .f32) AGG X) W₁ B₁ W₂ B₂
    (addf (shapeCast S5000x100 x0 shapeCasts_S5000x100_S5000x100) (shapeCast S5000x100 x1 shapeCasts_S5000x100_S5000x100)) x2 (shapeCast S1x64 x3 shapeCasts_S1x64_S1x64) x4 (shapeCast S1x100 x5 shapeCasts_S1x100_S1x100)
    bitsLt_bf16_f32 broadcasts_S1x64_S5000x64 broadcasts_S1x100_S5000x100 hrow64 hrowsN64 hzeroN64 hrow100 hrowsN100 hzeroN100 r R q
    (fun k => by
      show shapeCast S5000x100 x0 shapeCasts_S5000x100_S5000x100 (ix2 r k) + shapeCast S5000x100 x1 shapeCasts_S5000x100_S5000x100 (ix2 r k) = AGG (ix2 R k) + X (ix2 R k)
      rw [shapeCast_self, shapeCast_self, h0 k, h1 k])
    h2 (fun j => by rw [shapeCast_self]; exact h3 j) h4 (by rw [shapeCast_self]; exact h5)

/-- The printed index maps, decided over the grid: the two row windows and the result window are at block row t,
    the weight and bias windows at their one block. -/
theorem idx : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- What point t writes back is block t of the update layer of the arrays found on entry. -/
theorem flushed_eq (c : Dev nD) (t : Fin cfg3.N) (B₁ : FVec Ideal S64 .f32) (B₂ : FVec Ideal S100 .f32)
    (hB1 : ∀ j : Fin 64, V c main_v51 (ix2 (0 : Fin 1) j) = B₁ (ix1 j))
    (hB2 : ∀ q : Fin 100, V c main_v52 (ix2 (0 : Fin 1) q) = B₂ (ix1 q)) :
    (dat3 V c).flushed 6 t
      = ((cfg3.win 6).blk t).view.read (Elt Ideal)
          (upd64 (addf (F := Ideal) (s := S50000x100) (φ := .f32) (V c main_v50) (V c main_v28)) (V c main_arg11) B₁ (V c main_arg13) B₂) := by
  show (cfg3.win 6).cut (grid3.coords t) ((dat3 V c).after 6 t) = _
  rw [after3_6]
  unfold out3_6
  rw [View.canon_unit_zero hz]
  simp only [View.ld_unit_zero (S := S5000x100) hz, View.ld_unit_zero (S := S100x64) hz, View.ld_unit_zero (S := S1x64) hz, View.ld_unit_zero (S := S64x100) hz, View.ld_unit_zero (S := S1x100) hz]
  obtain ⟨e00, e01, e10, e11, e20, e21, e30, e31, e40, e41, e50, e51, e60, e61⟩ := idx t
  have ht : t.val < 10 := lt_of_lt_of_eq t.isLt N_3
  funext j
  obtain ⟨r, q, rfl⟩ : ∃ (r : Fin 5000) (q : Fin 100), j = ix2 r q := ⟨j 0, j 1, eq_ix2 j⟩
  have hr : r.val < 5000 := r.isLt
  have hq : q.val < 100 := q.isLt
  have hI : ((cfg3.win 6).blk t).view.emb (ix2 r q) = ix2 (⟨t.val * 5000 + r.val, by omega⟩ : Fin 50000) q := by
    funext a; apply Fin.ext
    match a with
    | ⟨0, _⟩ => show win3_6.index t (0 : Fin 2) * 5000 + 1 * r.val = t.val * 5000 + r.val; omega
    | ⟨1, _⟩ => show win3_6.index t (1 : Fin 2) * 100 + 1 * q.val = q.val; omega
  show k3_pay1 (iblk3 V c 0 t) (iblk3 V c 1 t) (iblk3 V c 2 t) (iblk3 V c 3 t) (iblk3 V c 4 t) (iblk3 V c 5 t) (ix2 r q)
    = upd64 (addf (F := Ideal) (s := S50000x100) (φ := .f32) (V c main_v50) (V c main_v28)) (V c main_arg11) B₁ (V c main_arg13) B₂
        (((cfg3.win 6).blk t).view.emb (ix2 r q))
  rw [hI]
  refine pay_at (iblk3 V c 0 t) (iblk3 V c 1 t) (iblk3 V c 2 t) (iblk3 V c 3 t) (iblk3 V c 4 t) (iblk3 V c 5 t)
    (V c main_v50) (V c main_v28) (V c main_arg11) B₁ (V c main_arg13) B₂ r ⟨t.val * 5000 + r.val, by omega⟩ q ?_ ?_ ?_ ?_ ?_ ?_
  · intro k
    have hk : k.val < 100 := k.isLt
    show V c main_v50 (((cfg3.win 0).blk t).view.emb (ix2 r k)) = V c main_v50 (ix2 (⟨t.val * 5000 + r.val, by omega⟩ : Fin 50000) k)
    refine congrArg (V c main_v50) ?_
    funext a; apply Fin.ext
    match a with
    | ⟨0, _⟩ => show win3_0.index t (0 : Fin 2) * 5000 + 1 * r.val = t.val * 5000 + r.val; omega
    | ⟨1, _⟩ => show win3_0.index t (1 : Fin 2) * 100 + 1 * k.val = k.val; omega
  · intro k
    have hk : k.val < 100 := k.isLt
    show V c main_v28 (((cfg3.win 1).blk t).view.emb (ix2 r k)) = V c main_v28 (ix2 (⟨t.val * 5000 + r.val, by omega⟩ : Fin 50000) k)
    refine congrArg (V c main_v28) ?_
    funext a; apply Fin.ext
    match a with
    | ⟨0, _⟩ => show win3_1.index t (0 : Fin 2) * 5000 + 1 * r.val = t.val * 5000 + r.val; omega
    | ⟨1, _⟩ => show win3_1.index t (1 : Fin 2) * 100 + 1 * k.val = k.val; omega
  · intro k j
    have hk : k.val < 100 := k.isLt
    have hj : j.val < 64 := j.isLt
    show V c main_arg11 (((cfg3.win 2).blk t).view.emb (ix2 k j)) = V c main_arg11 (ix2 k j)
    refine congrArg (V c main_arg11) ?_
    funext a; apply Fin.ext
    match a with
    | ⟨0, _⟩ => show win3_2.index t (0 : Fin 2) * 100 + 1 * k.val = k.val; omega
    | ⟨1, _⟩ => show win3_2.index t (1 : Fin 2) * 64 + 1 * j.val = j.val; omega
  · intro j
    have hj : j.val < 64 := j.isLt
    refine Eq.trans ?_ (hB1 j)
    show V c main_v51 (((cfg3.win 3).blk t).view.emb (ix2 (0 : Fin 1) j)) = V c main_v51 (ix2 (0 : Fin 1) j)
    refine congrArg (V c main_v51) ?_
    funext a; apply Fin.ext
    match a with
    | ⟨0, _⟩ => show win3_3.index t (0 : Fin 2) * 1 + 1 * 0 = 0; omega
    | ⟨1, _⟩ => show win3_3.index t (1 : Fin 2) * 64 + 1 * j.val = j.val; omega
  · intro j
    have hj : j.val < 64 := j.isLt
    show V c main_arg13 (((cfg3.win 4).blk t).view.emb (ix2 j q)) = V c main_arg13 (ix2 j q)
    refine congrArg (V c main_arg13) ?_
    funext a; apply Fin.ext
    match a with
    | ⟨0, _⟩ => show win3_4.index t (0 : Fin 2) * 64 + 1 * j.val = j.val; omega
    | ⟨1, _⟩ => show win3_4.index t (1 : Fin 2) * 100 + 1 * q.val = q.val; omega
  · refine Eq.trans ?_ (hB2 q)
    show V c main_v52 (((cfg3.win 5).blk t).view.emb (ix2 (0 : Fin 1) q)) = V c main_v52 (ix2 (0 : Fin 1) q)
    refine congrArg (V c main_v52) ?_
    funext a; apply Fin.ext
    match a with
    | ⟨0, _⟩ => show win3_5.index t (0 : Fin 2) * 1 + 1 * 0 = 0; omega
    | ⟨1, _⟩ => show win3_5.index t (1 : Fin 2) * 100 + 1 * q.val = q.val; omega

/-- An index of the result array is in point t's block iff each coordinate is in the block's range on its axis. -/
theorem mem_blk (t : Fin cfg3.N) (i : S50000x100.Idx) :
    i ∈ ((cfg3.win 6).blk t).view.set
      ↔ ∀ a : Fin 2, win3_6.index t a * S5000x100.size a ≤ (i a).val ∧ (i a).val < win3_6.index t a * S5000x100.size a + S5000x100.size a := by
  show i ∈ ((View.whole main_v53).slice (win3_6.rect t)).set ↔ _
  rw [View.set_slice_whole, Rect.mem_set_unit]
  exact Iff.rfl

/-- Every entry of the result array is in the block of the point its row falls in. -/
theorem cover (i : S50000x100.Idx) :
    ∃ t : Fin cfg3.N, (cfg3.win 6).flush t = true ∧ i ∈ ((cfg3.win 6).blk t).view.set := by
  have hi0 : (i 0).val < 50000 := (i 0).isLt
  have hi1 : (i 1).val < 100 := (i 1).isLt
  have hN : (i 0).val / 5000 < cfg3.N := by show (i 0).val / 5000 < grid3.N; rw [N_3]; omega
  obtain ⟨e00, e01, e10, e11, e20, e21, e30, e31, e40, e41, e50, e51, e60, e61⟩ := idx ⟨(i 0).val / 5000, hN⟩
  refine ⟨⟨(i 0).val / 5000, hN⟩, flush3_6 _, ?_⟩
  rw [mem_blk]
  intro a
  match a with
  | ⟨0, _⟩ =>
    show win3_6.index ⟨(i 0).val / 5000, hN⟩ (0 : Fin 2) * 5000 ≤ (i 0).val
      ∧ (i 0).val < win3_6.index ⟨(i 0).val / 5000, hN⟩ (0 : Fin 2) * 5000 + 5000
    rw [e60]
    show (i 0).val / 5000 * 5000 ≤ (i 0).val ∧ (i 0).val < (i 0).val / 5000 * 5000 + 5000
    omega
  | ⟨1, _⟩ =>
    show win3_6.index ⟨(i 0).val / 5000, hN⟩ (1 : Fin 2) * 100 ≤ (i 1).val
      ∧ (i 1).val < win3_6.index ⟨(i 0).val / 5000, hN⟩ (1 : Fin 2) * 100 + 100
    rw [e61]
    omega

/-- The result array after the kernel: the update layer of the arrays found on entry. -/
theorem final (c : Dev nD) (B₁ : FVec Ideal S64 .f32) (B₂ : FVec Ideal S100 .f32)
    (hB1 : ∀ j : Fin 64, V c main_v51 (ix2 (0 : Fin 1) j) = B₁ (ix1 j))
    (hB2 : ∀ q : Fin 100, V c main_v52 (ix2 (0 : Fin 1) q) = B₂ (ix1 q)) :
    (dat3 V c).arrAt 6 cfg3.N
      = upd64 (addf (F := Ideal) (s := S50000x100) (φ := .f32) (V c main_v50) (V c main_v28)) (V c main_arg11) B₁ (V c main_arg13) B₂ :=
  (dat3 V c).arrAt_eq_of_cover 6 _ (fun t _ => flushed_eq V c t B₁ B₂ hB1 hB2) cover

end Cert.KernelIdeal.KValue.Node3

end
-- ==== Proof.KEdge0.lean ====
/-
  What the first message kernel leaves in its result array.

  The kernel runs over 200 blocks of 4000 edges. At block t it loads rows 4000·t … 4000·t + 3999 of the three
  [800000, 100] feature arrays, the three [100, 100] weight matrices whole and the one-row bias, and stores
  relu (xi · w₁ + ea · w₂ + xj · w₃ + b) into the same rows of the result. When the three weight matrices are the
  three bands of rows of one [300, 100] matrix W and the bias row is a vector B, each stored entry is the message
  layer `msg` of the whole arrays at that entry (a 300-term row-by-column sum cut into three runs of 100), and the
  200 blocks tile the result, so the result array ends at `msg` of the arrays the kernel found on entry.
  Stated for any contents V of the buffers at the kernel's entry.
-/
import proofs.«113108_j87514253623335_1_alg».proof.Proof.KernelIdealFrameP
import proofs.«113108_j87514253623335_1_alg».proof.Proof.LibMessageLayers
import proofs.«113108_j87514253623335_1_alg».proof.Proof.KSpec
import Idealize.ShloMosaic.Lib.Pipeline.Value
import Idealize.ShloMosaic.Lib.ValueIdx
import Idealize.ShloMosaic.Lib.ValueLayout

set_option maxRecDepth 16384

noncomputable section

namespace Cert.KernelIdeal.KValue.Edge0

open Cert.KernelIdeal Cert.KernelIdeal.Gen Cert.KernelIdeal.GenP Cert.KernelIdeal.KValue
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at row r of a block is the message layer at row R of the whole arrays, when row r of
    each loaded feature block is row R of its array, the loaded weight matrices are the three bands of W and the
    loaded bias row is B. -/
theorem pay_at (x0 x1 x2 : Vec Ideal S4000x100 .f32) (x3 x4 x5 : Vec Ideal S100x100 .f32) (x6 : Vec Ideal S1x100 .f32)
    (XI EA XJ : FVec Ideal S800000x100 .f32) (W : FVec Ideal S300x100 .f32) (B : FVec Ideal S100 .f32)
    (r : Fin 4000) (R : Fin 800000) (q : Fin 100)
    (h0 : ∀ k : Fin 100, x0 (ix2 r k) = XI (ix2 R k)) (h1 : ∀ k : Fin 100, x1 (ix2 r k) = EA (ix2 R k))
    (h2 : ∀ k : Fin 100, x2 (ix2 r k) = XJ (ix2 R k))
    (h3 : ∀ k : Fin 100, x3 (ix2 k q) = W (ix2 (⟨k.val, by have := k.isLt; omega⟩ : Fin 300) q))
    (h4 : ∀ k : Fin 100, x4 (ix2 k q) = W (ix2 (⟨100 + k.val, by have := k.isLt; omega⟩ : Fin 300) q))
    (h5 : ∀ k : Fin 100, x5 (ix2 k q) = W (ix2 (⟨100 + 100 + k.val, by have := k.isLt; omega⟩ : Fin 300) q))
    (h6 : x6 (ix2 (0 : Fin 1) q) = B (ix1 q)) :
    k0_pay1 x0 x1 x2 x3 x4 x5 x6 (ix2 r q) = msg XI EA XJ W B (ix2 R q) := by
  unfold k0_pay1 msg
  exact MessageLayers.message_rows (E := 800000) (e := 4000) (a := 100) (b := 100) (c := 100) (t := 300) (N := 100)
    XI EA XJ W B (shapeCast S4000x100 x0 shapeCasts_S4000x100_S4000x100) x1 (shapeCast S4000x100 x2 shapeCasts_S4000x100_S4000x100)
    (shapeCast S100x100 x3 shapeCasts_S100x100_S100x100) (shapeCast S100x100 x4 shapeCasts_S100x100_S100x100)
    (shapeCast S100x100 x5 shapeCasts_S100x100_S100x100) (shapeCast S1x100 x6 shapeCasts_S1x100_S1x100)
    bitsLt_bf16_f32 broadcasts_S1x100_S4000x100 hcat hrow100 hrowsE hzeroE rfl r R q
    (fun k => by rw [shapeCast_self]; exact h0 k) h1 (fun k => by rw [shapeCast_self]; exact h2 k)
    (fun k => by rw [shapeCast_self]; exact h3 k) (fun k => by rw [shapeCast_self]; exact h4 k)
    (fun k => by rw [shapeCast_self]; exact h5 k) (by rw [shapeCast_self]; exact h6)

/-- The printed index maps, decided over the grid: the feature windows and the result window are at block row t,
    the weight and bias windows at their one block. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-- What point t writes back is block t of the message layer of the arrays found on entry. -/
theorem flushed_eq (c : Dev nD) (t : Fin cfg0.N) (W : FVec Ideal S300x100 .f32) (B : FVec Ideal S100 .f32)
    (hW1 : ∀ k q : Fin 100, V c main_v18 (ix2 k q) = W (ix2 (⟨k.val, by have := k.isLt; omega⟩ : Fin 300) q))
    (hW2 : ∀ k q : Fin 100, V c main_v19 (ix2 k q) = W (ix2 (⟨100 + k.val, by have := k.isLt; omega⟩ : Fin 300) q))
    (hW3 : ∀ k q : Fin 100, V c main_v20 (ix2 k q) = W (ix2 (⟨100 + 100 + k.val, by have := k.isLt; omega⟩ : Fin 300) q))
    (hB : ∀ q : Fin 100, V c main_v21 (ix2 (0 : Fin 1) q) = B (ix1 q)) :
    (dat0 V c).flushed 7 t
      = ((cfg0.win 7).blk t).view.read (Elt Ideal) (msg (V c main_v10) (V c main_arg2) (V c main_v17) W B) := by
  show (cfg0.win 7).cut (grid0.coords t) ((dat0 V c).after 7 t) = _
  rw [after0_7]
  unfold out0_7
  rw [View.canon_unit_zero hz]
  simp only [View.ld_unit_zero (S := S4000x100) hz, View.ld_unit_zero (S := S100x100) hz, View.ld_unit_zero (S := S1x100) hz]
  obtain ⟨e00, e01, e10, e11, e20, e21, e30, e31, e40, e41, e50, e51, e60, e61, e70, e71⟩ := idx t
  have ht : t.val < 200 := lt_of_lt_of_eq t.isLt N_0
  funext j
  obtain ⟨r, q, rfl⟩ : ∃ (r : Fin 4000) (q : Fin 100), j = ix2 r q := ⟨j 0, j 1, eq_ix2 j⟩
  have hr : r.val < 4000 := r.isLt
  have hq : q.val < 100 := q.isLt
  have hI : ((cfg0.win 7).blk t).view.emb (ix2 r q) = ix2 (⟨t.val * 4000 + r.val, by omega⟩ : Fin 800000) q := by
    funext a; apply Fin.ext
    match a with
    | ⟨0, _⟩ => show win0_7.index t (0 : Fin 2) * 4000 + 1 * r.val = t.val * 4000 + r.val; omega
    | ⟨1, _⟩ => show win0_7.index t (1 : Fin 2) * 100 + 1 * q.val = q.val; omega
  show k0_pay1 (iblk0 V c 0 t) (iblk0 V c 1 t) (iblk0 V c 2 t) (iblk0 V c 3 t) (iblk0 V c 4 t) (iblk0 V c 5 t)
      (iblk0 V c 6 t) (ix2 r q)
    = msg (V c main_v10) (V c main_arg2) (V c main_v17) W B (((cfg0.win 7).blk t).view.emb (ix2 r q))
  rw [hI]
  refine pay_at (iblk0 V c 0 t) (iblk0 V c 1 t) (iblk0 V c 2 t) (iblk0 V c 3 t) (iblk0 V c 4 t) (iblk0 V c 5 t)
    (iblk0 V c 6 t) (V c main_v10) (V c main_arg2) (V c main_v17) W B r ⟨t.val * 4000 + r.val, by omega⟩ q ?_ ?_ ?_ ?_ ?_ ?_ ?_
  · intro k
    have hk : k.val < 100 := k.isLt
    show V c main_v10 (((cfg0.win 0).blk t).view.emb (ix2 r k)) = V c main_v10 (ix2 (⟨t.val * 4000 + r.val, by omega⟩ : Fin 800000) k)
    refine congrArg (V c main_v10) ?_
    funext a; apply Fin.ext
    match a with
    | ⟨0, _⟩ => show win0_0.index t (0 : Fin 2) * 4000 + 1 * r.val = t.val * 4000 + r.val; omega
    | ⟨1, _⟩ => show win0_0.index t (1 : Fin 2) * 100 + 1 * k.val = k.val; omega
  · intro k
    have hk : k.val < 100 := k.isLt
    show V c main_arg2 (((cfg0.win 1).blk t).view.emb (ix2 r k)) = V c main_arg2 (ix2 (⟨t.val * 4000 + r.val, by omega⟩ : Fin 800000) k)
    refine congrArg (V c main_arg2) ?_
    funext a; apply Fin.ext
    match a with
    | ⟨0, _⟩ => show win0_1.index t (0 : Fin 2) * 4000 + 1 * r.val = t.val * 4000 + r.val; omega
    | ⟨1, _⟩ => show win0_1.index t (1 : Fin 2) * 100 + 1 * k.val = k.val; omega
  · intro k
    have hk : k.val < 100 := k.isLt
    show V c main_v17 (((cfg0.win 2).blk t).view.emb (ix2 r k)) = V c main_v17 (ix2 (⟨t.val * 4000 + r.val, by omega⟩ : Fin 800000) k)
    refine congrArg (V c main_v17) ?_
    funext a; apply Fin.ext
    match a with
    | ⟨0, _⟩ => show win0_2.index t (0 : Fin 2) * 4000 + 1 * r.val = t.val * 4000 + r.val; omega
    | ⟨1, _⟩ => show win0_2.index t (1 : Fin 2) * 100 + 1 * k.val = k.val; omega
  · intro k
    have hk : k.val < 100 := k.isLt
    refine Eq.trans ?_ (hW1 k q)
    show V c main_v18 (((cfg0.win 3).blk t).view.emb (ix2 k q)) = V c main_v18 (ix2 k q)
    refine congrArg (V c main_v18) ?_
    funext a; apply Fin.ext
    match a with
    | ⟨0, _⟩ => show win0_3.index t (0 : Fin 2) * 100 + 1 * k.val = k.val; omega
    | ⟨1, _⟩ => show win0_3.index t (1 : Fin 2) * 100 + 1 * q.val = q.val; omega
  · intro k
    have hk : k.val < 100 := k.isLt
    refine Eq.trans ?_ (hW2 k q)
    show V c main_v19 (((cfg0.win 4).blk t).view.emb (ix2 k q)) = V c main_v19 (ix2 k q)
    refine congrArg (V c main_v19) ?_
    funext a; apply Fin.ext
    match a with
    | ⟨0, _⟩ => show win0_4.index t (0 : Fin 2) * 100 + 1 * k.val = k.val; omega
    | ⟨1, _⟩ => show win0_4.index t (1 : Fin 2) * 100 + 1 * q.val = q.val; omega
  · intro k
    have hk : k.val < 100 := k.isLt
    refine Eq.trans ?_ (hW3 k q)
    show V c main_v20 (((cfg0.win 5).blk t).view.emb (ix2 k q)) = V c main_v20 (ix2 k q)
    refine congrArg (V c main_v20) ?_
    funext a; apply Fin.ext
    match a with
    | ⟨0, _⟩ => show win0_5.index t (0 : Fin 2) * 100 + 1 * k.val = k.val; omega
    | ⟨1, _⟩ => show win0_5.index t (1 : Fin 2) * 100 + 1 * q.val = q.val; omega
  · refine Eq.trans ?_ (hB q)
    show V c main_v21 (((cfg0.win 6).blk t).view.emb (ix2 (0 : Fin 1) q)) = V c main_v21 (ix2 (0 : Fin 1) q)
    refine congrArg (V c main_v21) ?_
    funext a; apply Fin.ext
    match a with
    | ⟨0, _⟩ => show win0_6.index t (0 : Fin 2) * 1 + 1 * 0 = 0; omega
    | ⟨1, _⟩ => show win0_6.index t (1 : Fin 2) * 100 + 1 * q.val = q.val; omega

/-- An index of the result array is in point t's block iff each coordinate is in the block's range on its axis. -/
theorem mem_blk (t : Fin cfg0.N) (i : S800000x100.Idx) :
    i ∈ ((cfg0.win 7).blk t).view.set
      ↔ ∀ a : Fin 2, win0_7.index t a * S4000x100.size a ≤ (i a).val ∧ (i a).val < win0_7.index t a * S4000x100.size a + S4000x100.size a := by
  show i ∈ ((View.whole main_v22).slice (win0_7.rect t)).set ↔ _
  rw [View.set_slice_whole, Rect.mem_set_unit]
  exact Iff.rfl

/-- Every entry of the result array is in the block of the point its row falls in. -/
theorem cover (i : S800000x100.Idx) :
    ∃ t : Fin cfg0.N, (cfg0.win 7).flush t = true ∧ i ∈ ((cfg0.win 7).blk t).view.set := by
  have hi0 : (i 0).val < 800000 := (i 0).isLt
  have hi1 : (i 1).val < 100 := (i 1).isLt
  have hN : (i 0).val / 4000 < cfg0.N := by show (i 0).val / 4000 < grid0.N; rw [N_0]; omega
  obtain ⟨e00, e01, e10, e11, e20, e21, e30, e31, e40, e41, e50, e51, e60, e61, e70, e71⟩ := idx ⟨(i 0).val / 4000, hN⟩
  refine ⟨⟨(i 0).val / 4000, hN⟩, flush0_7 _, ?_⟩
  rw [mem_blk]
  intro a
  match a with
  | ⟨0, _⟩ =>
    show win0_7.index ⟨(i 0).val / 4000, hN⟩ (0 : Fin 2) * 4000 ≤ (i 0).val
      ∧ (i 0).val < win0_7.index ⟨(i 0).val / 4000, hN⟩ (0 : Fin 2) * 4000 + 4000
    rw [e70]
    show (i 0).val / 4000 * 4000 ≤ (i 0).val ∧ (i 0).val < (i 0).val / 4000 * 4000 + 4000
    omega
  | ⟨1, _⟩ =>
    show win0_7.index ⟨(i 0).val / 4000, hN⟩ (1 : Fin 2) * 100 ≤ (i 1).val
      ∧ (i 1).val < win0_7.index ⟨(i 0).val / 4000, hN⟩ (1 : Fin 2) * 100 + 100
    rw [e71]
    omega

/-- The result array after the kernel: the message layer of the arrays found on entry. -/
theorem final (c : Dev nD) (W : FVec Ideal S300x100 .f32) (B : FVec Ideal S100 .f32)
    (hW1 : ∀ k q : Fin 100, V c main_v18 (ix2 k q) = W (ix2 (⟨k.val, by have := k.isLt; omega⟩ : Fin 300) q))
    (hW2 : ∀ k q : Fin 100, V c main_v19 (ix2 k q) = W (ix2 (⟨100 + k.val, by have := k.isLt; omega⟩ : Fin 300) q))
    (hW3 : ∀ k q : Fin 100, V c main_v20 (ix2 k q) = W (ix2 (⟨100 + 100 + k.val, by have := k.isLt; omega⟩ : Fin 300) q))
    (hB : ∀ q : Fin 100, V c main_v21 (ix2 (0 : Fin 1) q) = B (ix1 q)) :
    (dat0 V c).arrAt 7 cfg0.N = msg (V c main_v10) (V c main_arg2) (V c main_v17) W B :=
  (dat0 V c).arrAt_eq_of_cover 7 _ (fun t _ => flushed_eq V c t W B hW1 hW2 hW3 hB) cover

end Cert.KernelIdeal.KValue.Edge0

end
-- ==== Proof.KNode1.lean ====
/-
  What the first node-update kernel leaves in its result array.

  The kernel runs over 10 blocks of 5000 nodes. At block t it loads rows 5000·t … 5000·t + 4999 of the aggregated
  messages and of the node features, the two weight matrices whole and the two one-row biases, and stores
  relu (relu ((agg + x) · w₁ + b₁) · w₂ + b₂) into the same rows of the result. Each stored entry is the update
  layer `upd100` of the whole arrays at that entry, and the 10 blocks tile the result, so the result array ends at
  `upd100` of the arrays the kernel found on entry. Stated for any contents V of the buffers at the kernel's entry.
-/
import proofs.«113108_j87514253623335_1_alg».proof.Proof.KernelIdealFrameP
import proofs.«113108_j87514253623335_1_alg».proof.Proof.LibMessageLayers
import proofs.«113108_j87514253623335_1_alg».proof.Proof.KSpec
import Idealize.ShloMosaic.Lib.Pipeline.Value
import Idealize.ShloMosaic.Lib.ValueIdx
import Idealize.ShloMosaic.Lib.ValueLayout

set_option maxRecDepth 16384

noncomputable section

namespace Cert.KernelIdeal.KValue.Node1

open Cert.KernelIdeal Cert.KernelIdeal.Gen Cert.KernelIdeal.GenP Cert.KernelIdeal.KValue
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- The body's stored value at row r of a block is the update layer at row R of the whole arrays, when row r of the
    two loaded row blocks is row R of their arrays and the loaded weights and bias rows are the whole ones. -/
theorem pay_at (x0 x1 : Vec Ideal S5000x100 .f32) (x2 : Vec Ideal S100x100 .f32) (x3 : Vec Ideal S1x100 .f32)
    (x4 : Vec Ideal S100x100 .f32) (x5 : Vec Ideal S1x100 .f32)
    (AGG X : FVec Ideal S50000x100 .f32) (W₁ : FVec Ideal S100x100 .f32) (B₁ : FVec Ideal S100 .f32)
    (W₂ : FVec Ideal S100x100 .f32) (B₂ : FVec Ideal S100 .f32)
    (r : Fin 5000) (R : Fin 50000) (q : Fin 100)
    (h0 : ∀ k : Fin 100, x0 (ix2 r k) = AGG (ix2 R k)) (h1 : ∀ k : Fin 100, x1 (ix2 r k) = X (ix2 R k))
    (h2 : ∀ (k : Fin 100) (j : Fin 100), x2 (ix2 k j) = W₁ (ix2 k j))
    (h3 : ∀ j : Fin 100, x3 (ix2 (0 : Fin 1) j) = B₁ (ix1 j))
    (h4 : ∀ j : Fin 100, x4 (ix2 j q) = W₂ (ix2 j q)) (h5 : x5 (ix2 (0 : Fin 1) q) = B₂ (ix1 q)) :
    k1_pay1 x0 x1 x2 x3 x4 x5 (ix2 r q)
      = upd100 (addf (F := Ideal) (s := S50000x100) (φ := .f32) AGG X) W₁ B₁ W₂ B₂ (ix2 R q) := by
  unfold k1_pay1 upd100
  exact MessageLayers.update_rows (M := 50000) (m := 5000) (K := 100) (H := 100) (N := 100)
    (addf (F := Ideal) (s := S50000x100) (φ := .f32) AGG X) W₁ B₁ W₂ B₂
    (addf (shapeCast S5000x100 x0 shapeCasts_S5000x100_S5000x100) x1) x2 (shapeCast S1x100 x3 shapeCasts_S1x100_S1x100) x4 (shapeCast S1x100 x5 shapeCasts_S1x100_S1x100)
    bitsLt_bf16_f32 broadcasts_S1x100_S5000x100 broadcasts_S1x100_S5000x100 hrow100 hrowsN100 hzeroN100 hrow100 hrowsN100 hzeroN100 r R q
    (fun k => by
      show shapeCast S5000x100 x0 shapeCasts_S5000x100_S5000x100 (ix2 r k) + x1 (ix2 r k) = AGG (ix2 R k) + X (ix2 R k)
      rw [shapeCast_self, h0 k, h1 k])
    h2 (fun j => by rw [shapeCast_self]; exact h3 j) h4 (by rw [shapeCast_self]; exact h5)

/-- The printed index maps, decided over the grid: the two row windows and the result window are at block row t,
    the weight and bias windows at their one block. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What point t writes back is block t of the update layer of the arrays found on entry. -/
theorem flushed_eq (c : Dev nD) (t : Fin cfg1.N) (B₁ : FVec Ideal S100 .f32) (B₂ : FVec Ideal S100 .f32)
    (hB1 : ∀ j : Fin 100, V c main_v26 (ix2 (0 : Fin 1) j) = B₁ (ix1 j))
    (hB2 : ∀ q : Fin 100, V c main_v27 (ix2 (0 : Fin 1) q) = B₂ (ix1 q)) :
    (dat1 V c).flushed 6 t
      = ((cfg1.win 6).blk t).view.read (Elt Ideal)
          (upd100 (addf (F := Ideal) (s := S50000x100) (φ := .f32) (V c main_v25) (V c main_arg0)) (V c main_arg5) B₁ (V c main_arg7) B₂) := by
  show (cfg1.win 6).cut (grid1.coords t) ((dat1 V c).after 6 t) = _
  rw [after1_6]
  unfold out1_6
  rw [View.canon_unit_zero hz]
  simp only [View.ld_unit_zero (S := S5000x100) hz, View.ld_unit_zero (S := S100x100) hz, View.ld_unit_zero (S := S1x100) hz]
  obtain ⟨e00, e01, e10, e11, e20, e21, e30, e31, e40, e41, e50, e51, e60, e61⟩ := idx t
  have ht : t.val < 10 := lt_of_lt_of_eq t.isLt N_1
  funext j
  obtain ⟨r, q, rfl⟩ : ∃ (r : Fin 5000) (q : Fin 100), j = ix2 r q := ⟨j 0, j 1, eq_ix2 j⟩
  have hr : r.val < 5000 := r.isLt
  have hq : q.val < 100 := q.isLt
  have hI : ((cfg1.win 6).blk t).view.emb (ix2 r q) = ix2 (⟨t.val * 5000 + r.val, by omega⟩ : Fin 50000) q := by
    funext a; apply Fin.ext
    match a with
    | ⟨0, _⟩ => show win1_6.index t (0 : Fin 2) * 5000 + 1 * r.val = t.val * 5000 + r.val; omega
    | ⟨1, _⟩ => show win1_6.index t (1 : Fin 2) * 100 + 1 * q.val = q.val; omega
  show k1_pay1 (iblk1 V c 0 t) (iblk1 V c 1 t) (iblk1 V c 2 t) (iblk1 V c 3 t) (iblk1 V c 4 t) (iblk1 V c 5 t) (ix2 r q)
    = upd100 (addf (F := Ideal) (s := S50000x100) (φ := .f32) (V c main_v25) (V c main_arg0)) (V c main_arg5) B₁ (V c main_arg7) B₂
        (((cfg1.win 6).blk t).view.emb (ix2 r q))
  rw [hI]
  refine pay_at (iblk1 V c 0 t) (iblk1 V c 1 t) (iblk1 V c 2 t) (iblk1 V c 3 t) (iblk1 V c 4 t) (iblk1 V c 5 t)
    (V c main_v25) (V c main_arg0) (V c main_arg5) B₁ (V c main_arg7) B₂ r ⟨t.val * 5000 + r.val, by omega⟩ q ?_ ?_ ?_ ?_ ?_ ?_
  · intro k
    have hk : k.val < 100 := k.isLt
    show V c main_v25 (((cfg1.win 0).blk t).view.emb (ix2 r k)) = V c main_v25 (ix2 (⟨t.val * 5000 + r.val, by omega⟩ : Fin 50000) k)
    refine congrArg (V c main_v25) ?_
    funext a; apply Fin.ext
    match a with
    | ⟨0, _⟩ => show win1_0.index t (0 : Fin 2) * 5000 + 1 * r.val = t.val * 5000 + r.val; omega
    | ⟨1, _⟩ => show win1_0.index t (1 : Fin 2) * 100 + 1 * k.val = k.val; omega
  · intro k
    have hk : k.val < 100 := k.isLt
    show V c main_arg0 (((cfg1.win 1).blk t).view.emb (ix2 r k)) = V c main_arg0 (ix2 (⟨t.val * 5000 + r.val, by omega⟩ : Fin 50000) k)
    refine congrArg (V c main_arg0) ?_
    funext a; apply Fin.ext
    match a with
    | ⟨0, _⟩ => show win1_1.index t (0 : Fin 2) * 5000 + 1 * r.val = t.val * 5000 + r.val; omega
    | ⟨1, _⟩ => show win1_1.index t (1 : Fin 2) * 100 + 1 * k.val = k.val; omega
  · intro k j
    have hk : k.val < 100 := k.isLt
    have hj : j.val < 100 := j.isLt
    show V c main_arg5 (((cfg1.win 2).blk t).view.emb (ix2 k j)) = V c main_arg5 (ix2 k j)
    refine congrArg (V c main_arg5) ?_
    funext a; apply Fin.ext
    match a with
    | ⟨0, _⟩ => show win1_2.index t (0 : Fin 2) * 100 + 1 * k.val = k.val; omega
    | ⟨1, _⟩ => show win1_2.index t (1 : Fin 2) * 100 + 1 * j.val = j.val; omega
  · intro j
    have hj : j.val < 100 := j.isLt
    refine Eq.trans ?_ (hB1 j)
    show V c main_v26 (((cfg1.win 3).blk t).view.emb (ix2 (0 : Fin 1) j)) = V c main_v26 (ix2 (0 : Fin 1) j)
    refine congrArg (V c main_v26) ?_
    funext a; apply Fin.ext
    match a with
    | ⟨0, _⟩ => show win1_3.index t (0 : Fin 2) * 1 + 1 * 0 = 0; omega
    | ⟨1, _⟩ => show win1_3.index t (1 : Fin 2) * 100 + 1 * j.val = j.val; omega
  · intro j
    have hj : j.val < 100 := j.isLt
    show V c main_arg7 (((cfg1.win 4).blk t).view.emb (ix2 j q)) = V c main_arg7 (ix2 j q)
    refine congrArg (V c main_arg7) ?_
    funext a; apply Fin.ext
    match a with
    | ⟨0, _⟩ => show win1_4.index t (0 : Fin 2) * 100 + 1 * j.val = j.val; omega
    | ⟨1, _⟩ => show win1_4.index t (1 : Fin 2) * 100 + 1 * q.val = q.val; omega
  · refine Eq.trans ?_ (hB2 q)
    show V c main_v27 (((cfg1.win 5).blk t).view.emb (ix2 (0 : Fin 1) q)) = V c main_v27 (ix2 (0 : Fin 1) q)
    refine congrArg (V c main_v27) ?_
    funext a; apply Fin.ext
    match a with
    | ⟨0, _⟩ => show win1_5.index t (0 : Fin 2) * 1 + 1 * 0 = 0; omega
    | ⟨1, _⟩ => show win1_5.index t (1 : Fin 2) * 100 + 1 * q.val = q.val; omega

/-- An index of the result array is in point t's block iff each coordinate is in the block's range on its axis. -/
theorem mem_blk (t : Fin cfg1.N) (i : S50000x100.Idx) :
    i ∈ ((cfg1.win 6).blk t).view.set
      ↔ ∀ a : Fin 2, win1_6.index t a * S5000x100.size a ≤ (i a).val ∧ (i a).val < win1_6.index t a * S5000x100.size a + S5000x100.size a := by
  show i ∈ ((View.whole main_v28).slice (win1_6.rect t)).set ↔ _
  rw [View.set_slice_whole, Rect.mem_set_unit]
  exact Iff.rfl

/-- Every entry of the result array is in the block of the point its row falls in. -/
theorem cover (i : S50000x100.Idx) :
    ∃ t : Fin cfg1.N, (cfg1.win 6).flush t = true ∧ i ∈ ((cfg1.win 6).blk t).view.set := by
  have hi0 : (i 0).val < 50000 := (i 0).isLt
  have hi1 : (i 1).val < 100 := (i 1).isLt
  have hN : (i 0).val / 5000 < cfg1.N := by show (i 0).val / 5000 < grid1.N; rw [N_1]; omega
  obtain ⟨e00, e01, e10, e11, e20, e21, e30, e31, e40, e41, e50, e51, e60, e61⟩ := idx ⟨(i 0).val / 5000, hN⟩
  refine ⟨⟨(i 0).val / 5000, hN⟩, flush1_6 _, ?_⟩
  rw [mem_blk]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, hN⟩ (1 : Fin 2) * 100 ≤ (i 1).val
      ∧ (i 1).val < win1_6.index ⟨(i 0).val / 5000, hN⟩ (1 : Fin 2) * 100 + 100
    rw [e61]
    omega

/-- The result array after the kernel: the update layer of the arrays found on entry. -/
theorem final (c : Dev nD) (B₁ : FVec Ideal S100 .f32) (B₂ : FVec Ideal S100 .f32)
    (hB1 : ∀ j : Fin 100, V c main_v26 (ix2 (0 : Fin 1) j) = B₁ (ix1 j))
    (hB2 : ∀ q : Fin 100, V c main_v27 (ix2 (0 : Fin 1) q) = B₂ (ix1 q)) :
    (dat1 V c).arrAt 6 cfg1.N
      = upd100 (addf (F := Ideal) (s := S50000x100) (φ := .f32) (V c main_v25) (V c main_arg0)) (V c main_arg5) B₁ (V c main_arg7) B₂ :=
  (dat1 V c).arrAt_eq_of_cover 6 _ (fun t _ => flushed_eq V c t B₁ B₂ hB1 hB2) cover

end Cert.KernelIdeal.KValue.Node1

end
-- ==== Proof.KConv1.lean ====
/-
  The first convolution, read off the run.

  The run's boundary contents (the fold GenP.W1 … GenP.W4 of the frame proof) at the buffers the first two kernels
  read and write, each as a function of the argument arrays: after the first stretch of host operations the edges'
  endpoints, the gathered rows, the bands of the weights; after the message kernel its result `msg …`; after the
  next stretch the messages summed at their targets; after the node-update kernel the first convolution's result.
  Buffers that a stage does not write are carried through it unchanged.
-/
import proofs.«113108_j87514253623335_1_alg».proof.Proof.KernelIdealFrameP
import proofs.«113108_j87514253623335_1_alg».proof.Proof.KNet
import proofs.«113108_j87514253623335_1_alg».proof.Proof.KEdge0
import proofs.«113108_j87514253623335_1_alg».proof.Proof.KNode1
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## After the host operations before the first message kernel

Each buffer the later stages read, after the first stretch of host operations, as a function of the argument
arrays: the edges' endpoints, the gathered rows, the three bands of the first message weights, the bias as a row;
and the argument arrays themselves, which no host operation writes. -/

theorem v1_1 : W1 m ρ c (Proc.devRef .tc main_v1) = (srcOf (m ((c : Thread nD τ).loc main_arg1))) := by
  show StableHlo.after hostOps0 (W0 m ρ c) (Proc.devRef .tc main_v1) = _
  dsimp only [hostOps0]
  after_results <;> rfl
theorem v3_1 : W1 m ρ c (Proc.devRef .tc main_v3) = (dstOf (m ((c : Thread nD τ).loc main_arg1))) := by
  show StableHlo.after hostOps0 (W0 m ρ c) (Proc.devRef .tc main_v3) = _
  dsimp only [hostOps0]
  after_results <;> rfl
theorem v10_1 : W1 m ρ c (Proc.devRef .tc main_v10) = rowsAt (m ((c : Thread nD τ).loc main_arg0)) (dstOf (m ((c : Thread nD τ).loc main_arg1))) := by
  show StableHlo.after hostOps0 (W0 m ρ c) (Proc.devRef .tc main_v10) = _
  dsimp only [hostOps0]
  after_results <;> rfl
theorem v17_1 : W1 m ρ c (Proc.devRef .tc main_v17) = rowsAt (m ((c : Thread nD τ).loc main_arg0)) (srcOf (m ((c : Thread nD τ).loc main_arg1))) := by
  show StableHlo.after hostOps0 (W0 m ρ c) (Proc.devRef .tc main_v17) = _
  dsimp only [hostOps0]
  after_results_simp <;> rfl
theorem v18_1 : W1 m ρ c (Proc.devRef .tc main_v18)
    = extractStridedSlice S100x100 ![0, 0] (m ((c : Thread nD τ).loc main_arg3)) slices_S300x100_S100x100_0_0 := by
  show StableHlo.after hostOps0 (W0 m ρ c) (Proc.devRef .tc main_v18) = _
  dsimp only [hostOps0]
  after_results <;> rfl
theorem v19_1 : W1 m ρ c (Proc.devRef .tc main_v19)
    = extractStridedSlice S100x100 ![100, 0] (m ((c : Thread nD τ).loc main_arg3)) slices_S300x100_S100x100_100_0 := by
  show StableHlo.after hostOps0 (W0 m ρ c) (Proc.devRef .tc main_v19) = _
  dsimp only [hostOps0]
  after_results <;> rfl
theorem v20_1 : W1 m ρ c (Proc.devRef .tc main_v20)
    = extractStridedSlice S100x100 ![200, 0] (m ((c : Thread nD τ).loc main_arg3)) slices_S300x100_S100x100_200_0 := by
  show StableHlo.after hostOps0 (W0 m ρ c) (Proc.devRef .tc main_v20) = _
  dsimp only [hostOps0]
  after_results <;> rfl
theorem v21_1 : W1 m ρ c (Proc.devRef .tc main_v21) = shapeCast S1x100 (m ((c : Thread nD τ).loc main_arg4)) shapeCasts_S100_S1x100 := by
  show StableHlo.after hostOps0 (W0 m ρ c) (Proc.devRef .tc main_v21) = _
  dsimp only [hostOps0]
  after_results <;> rfl

/-! ## The buffers that are only carried along

An argument array, or the edges' endpoints, at a later boundary: a stretch of host operations that does not write
the buffer leaves it, and so does a kernel of which it is no result (a kernel's input array ends as it began). -/

theorem arg0_1 : W1 m ρ c (Proc.devRef .tc main_arg0) = (m ((c : Thread nD τ).loc main_arg0)) := by
  show StableHlo.after hostOps0 (W0 m ρ c) (Proc.devRef .tc main_arg0) = _
  dsimp only [hostOps0]
  after_results <;> rfl
theorem arg0_2 : W2 m ρ c (Proc.devRef .tc main_arg0) = (m ((c : Thread nD τ).loc main_arg0)) :=
  (W2_of_ne m ρ c main_arg0 (by decide)).trans (arg0_1 m ρ c)
theorem arg0_3 : W3 m ρ c (Proc.devRef .tc main_arg0) = (m ((c : Thread nD τ).loc main_arg0)) := by
  refine Eq.trans ?_ (arg0_2 m ρ c)
  show StableHlo.after hostOps1 (W2 m ρ c) (Proc.devRef .tc main_arg0) = _
  dsimp only [hostOps1]
  after_results

theorem arg2_1 : W1 m ρ c (Proc.devRef .tc main_arg2) = (m ((c : Thread nD τ).loc main_arg2)) := by
  show StableHlo.after hostOps0 (W0 m ρ c) (Proc.devRef .tc main_arg2) = _
  dsimp only [hostOps0]
  after_results <;> rfl
theorem arg2_2 : W2 m ρ c (Proc.devRef .tc main_arg2) = (m ((c : Thread nD τ).loc main_arg2)) :=
  (W2_arr m ρ c 1).trans ((((dat0 (V1 m ρ) c).arrAt_in 1 rfl _).trans (A_eq0 (V1 m ρ) c 1)).trans (arg2_1 m ρ c))
theorem arg2_3 : W3 m ρ c (Proc.devRef .tc main_arg2) = (m ((c : Thread nD τ).loc main_arg2)) := by
  refine Eq.trans ?_ (arg2_2 m ρ c)
  show StableHlo.after hostOps1 (W2 m ρ c) (Proc.devRef .tc main_arg2) = _
  dsimp only [hostOps1]
  after_results
theorem arg2_4 : W4 m ρ c (Proc.devRef .tc main_arg2) = (m ((c : Thread nD τ).loc main_arg2)) :=
  (W4_of_ne m ρ c main_arg2 (by decide)).trans (arg2_3 m ρ c)

theorem arg5_1 : W1 m ρ c (Proc.devRef .tc main_arg5) = (m ((c : Thread nD τ).loc main_arg5)) := by
  show StableHlo.after hostOps0 (W0 m ρ c) (Proc.devRef .tc main_arg5) = _
  dsimp only [hostOps0]
  after_results <;> rfl
theorem arg5_2 : W2 m ρ c (Proc.devRef .tc main_arg5) = (m ((c : Thread nD τ).loc main_arg5)) :=
  (W2_of_ne m ρ c main_arg5 (by decide)).trans (arg5_1 m ρ c)
theorem arg5_3 : W3 m ρ c (Proc.devRef .tc main_arg5) = (m ((c : Thread nD τ).loc main_arg5)) := by
  refine Eq.trans ?_ (arg5_2 m ρ c)
  show StableHlo.after hostOps1 (W2 m ρ c) (Proc.devRef .tc main_arg5) = _
  dsimp only [hostOps1]
  after_results

theorem arg6_1 : W1 m ρ c (Proc.devRef .tc main_arg6) = (m ((c : Thread nD τ).loc main_arg6)) := by
  show StableHlo.after hostOps0 (W0 m ρ c) (Proc.devRef .tc main_arg6) = _
  dsimp only [hostOps0]
  after_results <;> rfl
theorem arg6_2 : W2 m ρ c (Proc.devRef .tc main_arg6) = (m ((c : Thread nD τ).loc main_arg6)) :=
  (W2_of_ne m ρ c main_arg6 (by decide)).trans (arg6_1 m ρ c)

theorem arg7_1 : W1 m ρ c (Proc.devRef .tc main_arg7) = (m ((c : Thread nD τ).loc main_arg7)) := by
  show StableHlo.after hostOps0 (W0 m ρ c) (Proc.devRef .tc main_arg7) = _
  dsimp only [hostOps0]
  after_results <;> rfl
theorem arg7_2 : W2 m ρ c (Proc.devRef .tc main_arg7) = (m ((c : Thread nD τ).loc main_arg7)) :=
  (W2_of_ne m ρ c main_arg7 (by decide)).trans (arg7_1 m ρ c)
theorem arg7_3 : W3 m ρ c (Proc.devRef .tc main_arg7) = (m ((c : Thread nD τ).loc main_arg7)) := by
  refine Eq.trans ?_ (arg7_2 m ρ c)
  show StableHlo.after hostOps1 (W2 m ρ c) (Proc.devRef .tc main_arg7) = _
  dsimp only [hostOps1]
  after_results

theorem arg8_1 : W1 m ρ c (Proc.devRef .tc main_arg8) = (m ((c : Thread nD τ).loc main_arg8)) := by
  show StableHlo.after hostOps0 (W0 m ρ c) (Proc.devRef .tc main_arg8) = _
  dsimp only [hostOps0]
  after_results <;> rfl
theorem arg8_2 : W2 m ρ c (Proc.devRef .tc main_arg8) = (m ((c : Thread nD τ).loc main_arg8)) :=
  (W2_of_ne m ρ c main_arg8 (by decide)).trans (arg8_1 m ρ c)

theorem arg9_1 : W1 m ρ c (Proc.devRef .tc main_arg9) = (m ((c : Thread nD τ).loc main_arg9)) := by
  show StableHlo.after hostOps0 (W0 m ρ c) (Proc.devRef .tc main_arg9) = _
  dsimp only [hostOps0]
  after_results <;> rfl
theorem arg9_2 : W2 m ρ c (Proc.devRef .tc main_arg9) = (m ((c : Thread nD τ).loc main_arg9)) :=
  (W2_of_ne m ρ c main_arg9 (by decide)).trans (arg9_1 m ρ c)
theorem arg9_3 : W3 m ρ c (Proc.devRef .tc main_arg9) = (m ((c : Thread nD τ).loc main_arg9)) := by
  refine Eq.trans ?_ (arg9_2 m ρ c)
  show StableHlo.after hostOps1 (W2 m ρ c) (Proc.devRef .tc main_arg9) = _
  dsimp only [hostOps1]
  after_results
theorem arg9_4 : W4 m ρ c (Proc.devRef .tc main_arg9) = (m ((c : Thread nD τ).loc main_arg9)) :=
  (W4_of_ne m ρ c main_arg9 (by decide)).trans (arg9_3 m ρ c)

theorem arg10_1 : W1 m ρ c (Proc.devRef .tc main_arg10) = (m ((c : Thread nD τ).loc main_arg10)) := by
  show StableHlo.after hostOps0 (W0 m ρ c) (Proc.devRef .tc main_arg10) = _
  dsimp only [hostOps0]
  after_results <;> rfl
theorem arg10_2 : W2 m ρ c (Proc.devRef .tc main_arg10) = (m ((c : Thread nD τ).loc main_arg10)) :=
  (W2_of_ne m ρ c main_arg10 (by decide)).trans (arg10_1 m ρ c)
theorem arg10_3 : W3 m ρ c (Proc.devRef .tc main_arg10) = (m ((c : Thread nD τ).loc main_arg10)) := by
  refine Eq.trans ?_ (arg10_2 m ρ c)
  show StableHlo.after hostOps1 (W2 m ρ c) (Proc.devRef .tc main_arg10) = _
  dsimp only [hostOps1]
  after_results
theorem arg10_4 : W4 m ρ c (Proc.devRef .tc main_arg10) = (m ((c : Thread nD τ).loc main_arg10)) :=
  (W4_of_ne m ρ c main_arg10 (by decide)).trans (arg10_3 m ρ c)

theorem arg11_1 : W1 m ρ c (Proc.devRef .tc main_arg11) = (m ((c : Thread nD τ).loc main_arg11)) := by
  show StableHlo.after hostOps0 (W0 m ρ c) (Proc.devRef .tc main_arg11) = _
  dsimp only [hostOps0]
  after_results <;> rfl
theorem arg11_2 : W2 m ρ c (Proc.devRef .tc main_arg11) = (m ((c : Thread nD τ).loc main_arg11)) :=
  (W2_of_ne m ρ c main_arg11 (by decide)).trans (arg11_1 m ρ c)
theorem arg11_3 : W3 m ρ c (Proc.devRef .tc main_arg11) = (m ((c : Thread nD τ).loc main_arg11)) := by
  refine Eq.trans ?_ (arg11_2 m ρ c)
  show StableHlo.after hostOps1 (W2 m ρ c) (Proc.devRef .tc main_arg11) = _
  dsimp only [hostOps1]
  after_results
theorem arg11_4 : W4 m ρ c (Proc.devRef .tc main_arg11) = (m ((c : Thread nD τ).loc main_arg11)) :=
  (W4_of_ne m ρ c main_arg11 (by decide)).trans (arg11_3 m ρ c)

theorem arg12_1 : W1 m ρ c (Proc.devRef .tc main_arg12) = (m ((c : Thread nD τ).loc main_arg12)) := by
  show StableHlo.after hostOps0 (W0 m ρ c) (Proc.devRef .tc main_arg12) = _
  dsimp only [hostOps0]
  after_results <;> rfl
theorem arg12_2 : W2 m ρ c (Proc.devRef .tc main_arg12) = (m ((c : Thread nD τ).loc main_arg12)) :=
  (W2_of_ne m ρ c main_arg12 (by decide)).trans (arg12_1 m ρ c)
theorem arg12_3 : W3 m ρ c (Proc.devRef .tc main_arg12) = (m ((c : Thread nD τ).loc main_arg12)) := by
  refine Eq.trans ?_ (arg12_2 m ρ c)
  show StableHlo.after hostOps1 (W2 m ρ c) (Proc.devRef .tc main_arg12) = _
  dsimp only [hostOps1]
  after_results
theorem arg12_4 : W4 m ρ c (Proc.devRef .tc main_arg12) = (m ((c : Thread nD τ).loc main_arg12)) :=
  (W4_of_ne m ρ c main_arg12 (by decide)).trans (arg12_3 m ρ c)

theorem arg13_1 : W1 m ρ c (Proc.devRef .tc main_arg13) = (m ((c : Thread nD τ).loc main_arg13)) := by
  show StableHlo.after hostOps0 (W0 m ρ c) (Proc.devRef .tc main_arg13) = _
  dsimp only [hostOps0]
  after_results <;> rfl
theorem arg13_2 : W2 m ρ c (Proc.devRef .tc main_arg13) = (m ((c : Thread nD τ).loc main_arg13)) :=
  (W2_of_ne m ρ c main_arg13 (by decide)).trans (arg13_1 m ρ c)
theorem arg13_3 : W3 m ρ c (Proc.devRef .tc main_arg13) = (m ((c : Thread nD τ).loc main_arg13)) := by
  refine Eq.trans ?_ (arg13_2 m ρ c)
  show StableHlo.after hostOps1 (W2 m ρ c) (Proc.devRef .tc main_arg13) = _
  dsimp only [hostOps1]
  after_results
theorem arg13_4 : W4 m ρ c (Proc.devRef .tc main_arg13) = (m ((c : Thread nD τ).loc main_arg13)) :=
  (W4_of_ne m ρ c main_arg13 (by decide)).trans (arg13_3 m ρ c)

theorem arg14_1 : W1 m ρ c (Proc.devRef .tc main_arg14) = (m ((c : Thread nD τ).loc main_arg14)) := by
  show StableHlo.after hostOps0 (W0 m ρ c) (Proc.devRef .tc main_arg14) = _
  dsimp only [hostOps0]
  after_results <;> rfl
theorem arg14_2 : W2 m ρ c (Proc.devRef .tc main_arg14) = (m ((c : Thread nD τ).loc main_arg14)) :=
  (W2_of_ne m ρ c main_arg14 (by decide)).trans (arg14_1 m ρ c)
theorem arg14_3 : W3 m ρ c (Proc.devRef .tc main_arg14) = (m ((c : Thread nD τ).loc main_arg14)) := by
  refine Eq.trans ?_ (arg14_2 m ρ c)
  show StableHlo.after hostOps1 (W2 m ρ c) (Proc.devRef .tc main_arg14) = _
  dsimp only [hostOps1]
  after_results
theorem arg14_4 : W4 m ρ c (Proc.devRef .tc main_arg14) = (m ((c : Thread nD τ).loc main_arg14)) :=
  (W4_of_ne m ρ c main_arg14 (by decide)).trans (arg14_3 m ρ c)

theorem v1_2 : W2 m ρ c (Proc.devRef .tc main_v1) = (srcOf (m ((c : Thread nD τ).loc main_arg1))) := (W2_of_ne m ρ c main_v1 (by decide)).trans (v1_1 m ρ c)
theorem v3_2 : W2 m ρ c (Proc.devRef .tc main_v3) = (dstOf (m ((c : Thread nD τ).loc main_arg1))) := (W2_of_ne m ρ c main_v3 (by decide)).trans (v3_1 m ρ c)

/-! ## The first message kernel's result -/

theorem v22_2 : W2 m ρ c (Proc.devRef .tc main_v22) = msg (rowsAt (m ((c : Thread nD τ).loc main_arg0)) (dstOf (m ((c : Thread nD τ).loc main_arg1)))) (m ((c : Thread nD τ).loc main_arg2)) (rowsAt (m ((c : Thread nD τ).loc main_arg0)) (srcOf (m ((c : Thread nD τ).loc main_arg1)))) (m ((c : Thread nD τ).loc main_arg3)) (m ((c : Thread nD τ).loc main_arg4)) := by
  refine (W2_arr m ρ c 7).trans ((Edge0.final (V1 m ρ) c (m ((c : Thread nD τ).loc main_arg3)) (m ((c : Thread nD τ).loc main_arg4)) ?_ ?_ ?_ ?_).trans ?_)
  · intro k q
    show W1 m ρ c (Proc.devRef .tc main_v18) (ix2 k q) = _
    rw [v18_1]
    exact extractStridedSlice_apply ![0, 0] (m ((c : Thread nD τ).loc main_arg3)) slices_S300x100_S100x100_0_0 (ix2 k q) (ix2 (⟨k.val, by have := k.isLt; omega⟩ : Fin 300) q)
      (fun a => match a with
        | ⟨0, _⟩ => by show k.val = 0 + k.val; omega
        | ⟨1, _⟩ => by show q.val = 0 + q.val; omega)
  · intro k q
    show W1 m ρ c (Proc.devRef .tc main_v19) (ix2 k q) = _
    rw [v19_1]
    exact extractStridedSlice_apply ![100, 0] (m ((c : Thread nD τ).loc main_arg3)) slices_S300x100_S100x100_100_0 (ix2 k q) (ix2 (⟨100 + k.val, by have := k.isLt; omega⟩ : Fin 300) q)
      (fun a => match a with
        | ⟨0, _⟩ => by show 100 + k.val = 100 + k.val; omega
        | ⟨1, _⟩ => by show q.val = 0 + q.val; omega)
  · intro k q
    show W1 m ρ c (Proc.devRef .tc main_v20) (ix2 k q) = _
    rw [v20_1]
    exact extractStridedSlice_apply ![200, 0] (m ((c : Thread nD τ).loc main_arg3)) slices_S300x100_S100x100_200_0 (ix2 k q) (ix2 (⟨200 + k.val, by have := k.isLt; omega⟩ : Fin 300) q)
      (fun a => match a with
        | ⟨0, _⟩ => by show 200 + k.val = 200 + k.val; omega
        | ⟨1, _⟩ => by show q.val = 0 + q.val; omega)
  · intro q
    show W1 m ρ c (Proc.devRef .tc main_v21) (ix2 (0 : Fin 1) q) = _
    rw [v21_1]
    exact shapeCast_a_1a_apply (m ((c : Thread nD τ).loc main_arg4)) shapeCasts_S100_S1x100 0 q
  · show msg (W1 m ρ c (Proc.devRef .tc main_v10)) (W1 m ρ c (Proc.devRef .tc main_arg2)) (W1 m ρ c (Proc.devRef .tc main_v17)) (m ((c : Thread nD τ).loc main_arg3)) (m ((c : Thread nD τ).loc main_arg4)) = _
    rw [v10_1, arg2_1, v17_1]

/-! ## After the host operations between the first message kernel and the first node update -/

theorem v25_3 : W3 m ρ c (Proc.devRef .tc main_v25) = segSum (dstOf (m ((c : Thread nD τ).loc main_arg1))) (msg (rowsAt (m ((c : Thread nD τ).loc main_arg0)) (dstOf (m ((c : Thread nD τ).loc main_arg1)))) (m ((c : Thread nD τ).loc main_arg2)) (rowsAt (m ((c : Thread nD τ).loc main_arg0)) (srcOf (m ((c : Thread nD τ).loc main_arg1)))) (m ((c : Thread nD τ).loc main_arg3)) (m ((c : Thread nD τ).loc main_arg4))) := by
  show StableHlo.after hostOps1 (W2 m ρ c) (Proc.devRef .tc main_v25) = _
  dsimp only [hostOps1]
  after_results
  rw [v3_2, v22_2]
  rfl
theorem v26_3 : W3 m ρ c (Proc.devRef .tc main_v26) = shapeCast S1x100 (m ((c : Thread nD τ).loc main_arg6)) shapeCasts_S100_S1x100 := by
  show StableHlo.after hostOps1 (W2 m ρ c) (Proc.devRef .tc main_v26) = _
  dsimp only [hostOps1]
  after_results
  rw [arg6_2]
  rfl
theorem v27_3 : W3 m ρ c (Proc.devRef .tc main_v27) = shapeCast S1x100 (m ((c : Thread nD τ).loc main_arg8)) shapeCasts_S100_S1x100 := by
  show StableHlo.after hostOps1 (W2 m ρ c) (Proc.devRef .tc main_v27) = _
  dsimp only [hostOps1]
  after_results
  rw [arg8_2]
  rfl
theorem v1_3 : W3 m ρ c (Proc.devRef .tc main_v1) = (srcOf (m ((c : Thread nD τ).loc main_arg1))) := by
  refine Eq.trans ?_ (v1_2 m ρ c)
  show StableHlo.after hostOps1 (W2 m ρ c) (Proc.devRef .tc main_v1) = _
  dsimp only [hostOps1]
  after_results
theorem v3_3 : W3 m ρ c (Proc.devRef .tc main_v3) = (dstOf (m ((c : Thread nD τ).loc main_arg1))) := by
  refine Eq.trans ?_ (v3_2 m ρ c)
  show StableHlo.after hostOps1 (W2 m ρ c) (Proc.devRef .tc main_v3) = _
  dsimp only [hostOps1]
  after_results
theorem v1_4 : W4 m ρ c (Proc.devRef .tc main_v1) = (srcOf (m ((c : Thread nD τ).loc main_arg1))) := (W4_of_ne m ρ c main_v1 (by decide)).trans (v1_3 m ρ c)
theorem v3_4 : W4 m ρ c (Proc.devRef .tc main_v3) = (dstOf (m ((c : Thread nD τ).loc main_arg1))) := (W4_of_ne m ρ c main_v3 (by decide)).trans (v3_3 m ρ c)

/-! ## The first node update's result: the first convolution -/

theorem v28_4 : W4 m ρ c (Proc.devRef .tc main_v28) = upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8)) := by
  refine (W4_arr m ρ c 6).trans ((Node1.final (V3 m ρ) c (m ((c : Thread nD τ).loc main_arg6)) (m ((c : Thread nD τ).loc main_arg8)) ?_ ?_).trans ?_)
  · intro j
    show W3 m ρ c (Proc.devRef .tc main_v26) (ix2 (0 : Fin 1) j) = _
    rw [v26_3]
    exact shapeCast_a_1a_apply (m ((c : Thread nD τ).loc main_arg6)) shapeCasts_S100_S1x100 0 j
  · intro q
    show W3 m ρ c (Proc.devRef .tc main_v27) (ix2 (0 : Fin 1) q) = _
    rw [v27_3]
    exact shapeCast_a_1a_apply (m ((c : Thread nD τ).loc main_arg8)) shapeCasts_S100_S1x100 0 q
  · show upd100 (addf (F := Ideal) (s := S50000x100) (φ := .f32) (W3 m ρ c (Proc.devRef .tc main_v25)) (W3 m ρ c (Proc.devRef .tc main_arg0)))
        (W3 m ρ c (Proc.devRef .tc main_arg5)) (m ((c : Thread nD τ).loc main_arg6)) (W3 m ρ c (Proc.devRef .tc main_arg7)) (m ((c : Thread nD τ).loc main_arg8)) = _
    rw [v25_3, arg0_3, arg5_3, arg7_3]
    rfl

end Cert.KernelIdeal.KValue

end
-- ==== Proof.KConv2.lean ====
/-
  The second convolution, read off the run, and the result buffer.

  The run's boundary contents GenP.W5 … GenP.W8 at the buffers the last two kernels read and write, continuing from
  the first convolution's result: the rows gathered from it, the second message kernel's result, the messages
  summed at their targets, and the second node update's result, which is the network `net` of the argument arrays.
-/
import proofs.«113108_j87514253623335_1_alg».proof.Proof.KernelIdealFrameP
import proofs.«113108_j87514253623335_1_alg».proof.Proof.KNet
import proofs.«113108_j87514253623335_1_alg».proof.Proof.KEdge2
import proofs.«113108_j87514253623335_1_alg».proof.Proof.KNode3
import proofs.«113108_j87514253623335_1_alg».proof.Proof.KConv1
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KValue

open Cert.KernelIdeal Cert.KernelIdeal.Gen Cert.KernelIdeal.GenP
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## After the host operations before the second message kernel -/

theorem v35_5 : W5 m ρ c (Proc.devRef .tc main_v35) = rowsAt (upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) (dstOf (m ((c : Thread nD τ).loc main_arg1))) := by
  show StableHlo.after hostOps2 (W4 m ρ c) (Proc.devRef .tc main_v35) = _
  dsimp only [hostOps2]
  after_results_simp
  rw [v28_4, v3_4]
  rfl
theorem v42_5 : W5 m ρ c (Proc.devRef .tc main_v42) = rowsAt (upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) (srcOf (m ((c : Thread nD τ).loc main_arg1))) := by
  show StableHlo.after hostOps2 (W4 m ρ c) (Proc.devRef .tc main_v42) = _
  dsimp only [hostOps2]
  after_results_simp
  rw [v28_4, v1_4]
  rfl
theorem v43_5 : W5 m ρ c (Proc.devRef .tc main_v43)
    = extractStridedSlice S100x100 ![0, 0] (m ((c : Thread nD τ).loc main_arg9)) slices_S300x100_S100x100_0_0 := by
  show StableHlo.after hostOps2 (W4 m ρ c) (Proc.devRef .tc main_v43) = _
  dsimp only [hostOps2]
  after_results
  rw [arg9_4]
theorem v44_5 : W5 m ρ c (Proc.devRef .tc main_v44)
    = extractStridedSlice S100x100 ![100, 0] (m ((c : Thread nD τ).loc main_arg9)) slices_S300x100_S100x100_100_0 := by
  show StableHlo.after hostOps2 (W4 m ρ c) (Proc.devRef .tc main_v44) = _
  dsimp only [hostOps2]
  after_results
  rw [arg9_4]
theorem v45_5 : W5 m ρ c (Proc.devRef .tc main_v45)
    = extractStridedSlice S100x100 ![200, 0] (m ((c : Thread nD τ).loc main_arg9)) slices_S300x100_S100x100_200_0 := by
  show StableHlo.after hostOps2 (W4 m ρ c) (Proc.devRef .tc main_v45) = _
  dsimp only [hostOps2]
  after_results
  rw [arg9_4]
theorem v46_5 : W5 m ρ c (Proc.devRef .tc main_v46) = shapeCast S1x100 (m ((c : Thread nD τ).loc main_arg10)) shapeCasts_S100_S1x100 := by
  show StableHlo.after hostOps2 (W4 m ρ c) (Proc.devRef .tc main_v46) = _
  dsimp only [hostOps2]
  after_results
  rw [arg10_4]
  rfl

/-! ## The buffers that are only carried along -/

theorem arg2_5 : W5 m ρ c (Proc.devRef .tc main_arg2) = (m ((c : Thread nD τ).loc main_arg2)) := by
  refine Eq.trans ?_ (arg2_4 m ρ c)
  show StableHlo.after hostOps2 (W4 m ρ c) (Proc.devRef .tc main_arg2) = _
  dsimp only [hostOps2]
  after_results
theorem v3_5 : W5 m ρ c (Proc.devRef .tc main_v3) = (dstOf (m ((c : Thread nD τ).loc main_arg1))) := by
  refine Eq.trans ?_ (v3_4 m ρ c)
  show StableHlo.after hostOps2 (W4 m ρ c) (Proc.devRef .tc main_v3) = _
  dsimp only [hostOps2]
  after_results
theorem v3_6 : W6 m ρ c (Proc.devRef .tc main_v3) = (dstOf (m ((c : Thread nD τ).loc main_arg1))) :=
  (W6_of_ne m ρ c main_v3 (by decide)).trans (v3_5 m ρ c)
theorem v28_5 : W5 m ρ c (Proc.devRef .tc main_v28) = (upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) := by
  refine Eq.trans ?_ (v28_4 m ρ c)
  show StableHlo.after hostOps2 (W4 m ρ c) (Proc.devRef .tc main_v28) = _
  dsimp only [hostOps2]
  after_results
theorem v28_6 : W6 m ρ c (Proc.devRef .tc main_v28) = (upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) :=
  (W6_of_ne m ρ c main_v28 (by decide)).trans (v28_5 m ρ c)
theorem v28_7 : W7 m ρ c (Proc.devRef .tc main_v28) = (upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) := by
  refine Eq.trans ?_ (v28_6 m ρ c)
  show StableHlo.after hostOps3 (W6 m ρ c) (Proc.devRef .tc main_v28) = _
  dsimp only [hostOps3]
  after_results
theorem arg11_5 : W5 m ρ c (Proc.devRef .tc main_arg11) = (m ((c : Thread nD τ).loc main_arg11)) := by
  refine Eq.trans ?_ (arg11_4 m ρ c)
  show StableHlo.after hostOps2 (W4 m ρ c) (Proc.devRef .tc main_arg11) = _
  dsimp only [hostOps2]
  after_results
theorem arg11_6 : W6 m ρ c (Proc.devRef .tc main_arg11) = (m ((c : Thread nD τ).loc main_arg11)) :=
  (W6_of_ne m ρ c main_arg11 (by decide)).trans (arg11_5 m ρ c)
theorem arg11_7 : W7 m ρ c (Proc.devRef .tc main_arg11) = (m ((c : Thread nD τ).loc main_arg11)) := by
  refine Eq.trans ?_ (arg11_6 m ρ c)
  show StableHlo.after hostOps3 (W6 m ρ c) (Proc.devRef .tc main_arg11) = _
  dsimp only [hostOps3]
  after_results
theorem arg12_5 : W5 m ρ c (Proc.devRef .tc main_arg12) = (m ((c : Thread nD τ).loc main_arg12)) := by
  refine Eq.trans ?_ (arg12_4 m ρ c)
  show StableHlo.after hostOps2 (W4 m ρ c) (Proc.devRef .tc main_arg12) = _
  dsimp only [hostOps2]
  after_results
theorem arg12_6 : W6 m ρ c (Proc.devRef .tc main_arg12) = (m ((c : Thread nD τ).loc main_arg12)) :=
  (W6_of_ne m ρ c main_arg12 (by decide)).trans (arg12_5 m ρ c)
theorem arg13_5 : W5 m ρ c (Proc.devRef .tc main_arg13) = (m ((c : Thread nD τ).loc main_arg13)) := by
  refine Eq.trans ?_ (arg13_4 m ρ c)
  show StableHlo.after hostOps2 (W4 m ρ c) (Proc.devRef .tc main_arg13) = _
  dsimp only [hostOps2]
  after_results
theorem arg13_6 : W6 m ρ c (Proc.devRef .tc main_arg13) = (m ((c : Thread nD τ).loc main_arg13)) :=
  (W6_of_ne m ρ c main_arg13 (by decide)).trans (arg13_5 m ρ c)
theorem arg13_7 : W7 m ρ c (Proc.devRef .tc main_arg13) = (m ((c : Thread nD τ).loc main_arg13)) := by
  refine Eq.trans ?_ (arg13_6 m ρ c)
  show StableHlo.after hostOps3 (W6 m ρ c) (Proc.devRef .tc main_arg13) = _
  dsimp only [hostOps3]
  after_results
theorem arg14_5 : W5 m ρ c (Proc.devRef .tc main_arg14) = (m ((c : Thread nD τ).loc main_arg14)) := by
  refine Eq.trans ?_ (arg14_4 m ρ c)
  show StableHlo.after hostOps2 (W4 m ρ c) (Proc.devRef .tc main_arg14) = _
  dsimp only [hostOps2]
  after_results
theorem arg14_6 : W6 m ρ c (Proc.devRef .tc main_arg14) = (m ((c : Thread nD τ).loc main_arg14)) :=
  (W6_of_ne m ρ c main_arg14 (by decide)).trans (arg14_5 m ρ c)

/-! ## The second message kernel's result -/

theorem v47_6 : W6 m ρ c (Proc.devRef .tc main_v47) = msg (rowsAt (upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) (dstOf (m ((c : Thread nD τ).loc main_arg1)))) (m ((c : Thread nD τ).loc main_arg2)) (rowsAt (upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) (srcOf (m ((c : Thread nD τ).loc main_arg1)))) (m ((c : Thread nD τ).loc main_arg9)) (m ((c : Thread nD τ).loc main_arg10)) := by
  refine (W6_arr m ρ c 7).trans ((Edge2.final (V5 m ρ) c (m ((c : Thread nD τ).loc main_arg9)) (m ((c : Thread nD τ).loc main_arg10)) ?_ ?_ ?_ ?_).trans ?_)
  · intro k q
    show W5 m ρ c (Proc.devRef .tc main_v43) (ix2 k q) = _
    rw [v43_5]
    exact extractStridedSlice_apply ![0, 0] (m ((c : Thread nD τ).loc main_arg9)) slices_S300x100_S100x100_0_0 (ix2 k q) (ix2 (⟨k.val, by have := k.isLt; omega⟩ : Fin 300) q)
      (fun a => match a with
        | ⟨0, _⟩ => by show k.val = 0 + k.val; omega
        | ⟨1, _⟩ => by show q.val = 0 + q.val; omega)
  · intro k q
    show W5 m ρ c (Proc.devRef .tc main_v44) (ix2 k q) = _
    rw [v44_5]
    exact extractStridedSlice_apply ![100, 0] (m ((c : Thread nD τ).loc main_arg9)) slices_S300x100_S100x100_100_0 (ix2 k q) (ix2 (⟨100 + k.val, by have := k.isLt; omega⟩ : Fin 300) q)
      (fun a => match a with
        | ⟨0, _⟩ => by show 100 + k.val = 100 + k.val; omega
        | ⟨1, _⟩ => by show q.val = 0 + q.val; omega)
  · intro k q
    show W5 m ρ c (Proc.devRef .tc main_v45) (ix2 k q) = _
    rw [v45_5]
    exact extractStridedSlice_apply ![200, 0] (m ((c : Thread nD τ).loc main_arg9)) slices_S300x100_S100x100_200_0 (ix2 k q) (ix2 (⟨200 + k.val, by have := k.isLt; omega⟩ : Fin 300) q)
      (fun a => match a with
        | ⟨0, _⟩ => by show 200 + k.val = 200 + k.val; omega
        | ⟨1, _⟩ => by show q.val = 0 + q.val; omega)
  · intro q
    show W5 m ρ c (Proc.devRef .tc main_v46) (ix2 (0 : Fin 1) q) = _
    rw [v46_5]
    exact shapeCast_a_1a_apply (m ((c : Thread nD τ).loc main_arg10)) shapeCasts_S100_S1x100 0 q
  · show msg (W5 m ρ c (Proc.devRef .tc main_v35)) (W5 m ρ c (Proc.devRef .tc main_arg2)) (W5 m ρ c (Proc.devRef .tc main_v42)) (m ((c : Thread nD τ).loc main_arg9)) (m ((c : Thread nD τ).loc main_arg10)) = _
    rw [v35_5, arg2_5, v42_5]

/-! ## After the host operations between the second message kernel and the second node update -/

theorem v50_7 : W7 m ρ c (Proc.devRef .tc main_v50) = segSum (dstOf (m ((c : Thread nD τ).loc main_arg1))) (msg (rowsAt (upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) (dstOf (m ((c : Thread nD τ).loc main_arg1)))) (m ((c : Thread nD τ).loc main_arg2)) (rowsAt (upd100 (aggPlus (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))) (srcOf (m ((c : Thread nD τ).loc main_arg1)))) (m ((c : Thread nD τ).loc main_arg9)) (m ((c : Thread nD τ).loc main_arg10))) := by
  show StableHlo.after hostOps3 (W6 m ρ c) (Proc.devRef .tc main_v50) = _
  dsimp only [hostOps3]
  after_results
  rw [v3_6, v47_6]
  rfl
theorem v51_7 : W7 m ρ c (Proc.devRef .tc main_v51) = shapeCast S1x64 (m ((c : Thread nD τ).loc main_arg12)) shapeCasts_S64_S1x64 := by
  show StableHlo.after hostOps3 (W6 m ρ c) (Proc.devRef .tc main_v51) = _
  dsimp only [hostOps3]
  after_results
  rw [arg12_6]
  rfl
theorem v52_7 : W7 m ρ c (Proc.devRef .tc main_v52) = shapeCast S1x100 (m ((c : Thread nD τ).loc main_arg14)) shapeCasts_S100_S1x100 := by
  show StableHlo.after hostOps3 (W6 m ρ c) (Proc.devRef .tc main_v52) = _
  dsimp only [hostOps3]
  after_results
  rw [arg14_6]
  rfl

/-! ## The second node update's result: the network -/

/-- The result buffer after the run is the network of the argument arrays. -/
theorem out_eq : W8 m ρ c (Proc.devRef .tc main_v53)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 6).trans ((Node3.final (V7 m ρ) c (m ((c : Thread nD τ).loc main_arg12)) (m ((c : Thread nD τ).loc main_arg14)) ?_ ?_).trans ?_)
  · intro j
    show W7 m ρ c (Proc.devRef .tc main_v51) (ix2 (0 : Fin 1) j) = _
    rw [v51_7]
    exact shapeCast_a_1a_apply (m ((c : Thread nD τ).loc main_arg12)) shapeCasts_S64_S1x64 0 j
  · intro q
    show W7 m ρ c (Proc.devRef .tc main_v52) (ix2 (0 : Fin 1) q) = _
    rw [v52_7]
    exact shapeCast_a_1a_apply (m ((c : Thread nD τ).loc main_arg14)) shapeCasts_S100_S1x100 0 q
  · show upd64 (addf (F := Ideal) (s := S50000x100) (φ := .f32) (W7 m ρ c (Proc.devRef .tc main_v50)) (W7 m ρ c (Proc.devRef .tc main_v28)))
        (W7 m ρ c (Proc.devRef .tc main_arg11)) (m ((c : Thread nD τ).loc main_arg12)) (W7 m ρ c (Proc.devRef .tc main_arg13)) (m ((c : Thread nD τ).loc main_arg14)) = _
    rw [v50_7, v28_7, arg11_7, arg13_7]
    rfl

end Cert.KernelIdeal.KValue

end
-- ==== Proof.KClaims.lean ====
/-
  The claims about the two idealized programs.

  Both programs compute the same two-convolution message-passing network over the extended reals. The kernel's
  run ends with its result buffer at `net` of the argument arrays (KConv2's `out_eq`, read off the run with every
  buffer named, KRun's `run_of`). The reference's run ends with its result at the operations' composed term, which
  is `net` of the argument arrays literally: the reference spells each layer the way `msg`, `upd100` and `upd64`
  do, so the two terms differ only in the names of their dimension records and unfold to one term.
  The mathematics of the match is in LibMessageLayers: the kernel multiplies the three feature blocks by the three
  bands of the weight matrix separately and adds the products, where the reference multiplies the joined features
  by the whole matrix; a sum of 300 consecutive terms is the sum of its three runs of 100. That holds in any
  commutative monoid, so the precondition (finite inputs) is never opened.
-/
import proofs.«113108_j87514253623335_1_alg».proof.Defs
import proofs.«113108_j87514253623335_1_alg».proof.Proof.KernelFrameP
import proofs.«113108_j87514253623335_1_alg».proof.Proof.KernelIdealFrameP
import proofs.«113108_j87514253623335_1_alg».proof.Proof.KRun
import proofs.«113108_j87514253623335_1_alg».proof.Proof.KConv2
import proofs.«113108_j87514253623335_1_alg».proof.Proof.Gen.ReferenceIdeal.Run
import proofs.«113108_j87514253623335_1_alg».proof.Proof.Gen.Pre_finite_inputs

set_option maxRecDepth 16384

noncomputable section

namespace Cert.Proof.Claims

open Idealize.ShloMosaic Idealize.ShloMosaic.TcCoe Idealize.SL.Sem
open Cert.KernelIdeal.KValue

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no conjunct to prove. -/
theorem preserves : Cert.preserves_Kernel_KernelIdeal := trivial

/-- The reference's composed term is the network of its argument arrays. -/
theorem ref_is_net (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v71 (F := Ideal) m' c
      = net (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14)) := by
  unfold Cert.ReferenceIdeal.Value.res_main_v71 net aggPlus upd64 upd100 msg segSum rowsAt dstOf srcOf
  rfl

/-- From memories agreeing on the arguments both runs end with the result at the network of the kernel's argument
    arrays, and the arguments unchanged. -/
theorem algebraic : Cert.algebraic_KernelIdeal_ReferenceIdeal := by
  intro m ρ m' ρ' _ hagree
  refine ⟨fun c => net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact Cert.KernelIdeal.KValue.run_of m ρ (fun s h c =>
      ⟨(h c _ (Cert.KernelIdeal.GenP.mem_uc Cert.KernelIdeal.main_v53 (by decide))).trans (out_eq m ρ c),
       (h c _ (Cert.KernelIdeal.GenP.mem_uc Cert.KernelIdeal.main_arg0 (by decide))).trans (Cert.KernelIdeal.GenP.W8_main_arg0 m ρ c),
       (h c _ (Cert.KernelIdeal.GenP.mem_uc Cert.KernelIdeal.main_arg1 (by decide))).trans (Cert.KernelIdeal.GenP.W8_main_arg1 m ρ c),
       (h c _ (Cert.KernelIdeal.GenP.mem_uc Cert.KernelIdeal.main_arg2 (by decide))).trans (Cert.KernelIdeal.GenP.W8_main_arg2 m ρ c),
       (h c _ (Cert.KernelIdeal.GenP.mem_uc Cert.KernelIdeal.main_arg3 (by decide))).trans (Cert.KernelIdeal.GenP.W8_main_arg3 m ρ c),
       (h c _ (Cert.KernelIdeal.GenP.mem_uc Cert.KernelIdeal.main_arg4 (by decide))).trans (Cert.KernelIdeal.GenP.W8_main_arg4 m ρ c),
       (h c _ (Cert.KernelIdeal.GenP.mem_uc Cert.KernelIdeal.main_arg5 (by decide))).trans (Cert.KernelIdeal.GenP.W8_main_arg5 m ρ c),
       (h c _ (Cert.KernelIdeal.GenP.mem_uc Cert.KernelIdeal.main_arg6 (by decide))).trans (Cert.KernelIdeal.GenP.W8_main_arg6 m ρ c),
       (h c _ (Cert.KernelIdeal.GenP.mem_uc Cert.KernelIdeal.main_arg7 (by decide))).trans (Cert.KernelIdeal.GenP.W8_main_arg7 m ρ c),
       (h c _ (Cert.KernelIdeal.GenP.mem_uc Cert.KernelIdeal.main_arg8 (by decide))).trans (Cert.KernelIdeal.GenP.W8_main_arg8 m ρ c),
       (h c _ (Cert.KernelIdeal.GenP.mem_uc Cert.KernelIdeal.main_arg9 (by decide))).trans (Cert.KernelIdeal.GenP.W8_main_arg9 m ρ c),
       (h c _ (Cert.KernelIdeal.GenP.mem_uc Cert.KernelIdeal.main_arg10 (by decide))).trans (Cert.KernelIdeal.GenP.W8_main_arg10 m ρ c),
       (h c _ (Cert.KernelIdeal.GenP.mem_uc Cert.KernelIdeal.main_arg11 (by decide))).trans (Cert.KernelIdeal.GenP.W8_main_arg11 m ρ c),
       (h c _ (Cert.KernelIdeal.GenP.mem_uc Cert.KernelIdeal.main_arg12 (by decide))).trans (Cert.KernelIdeal.GenP.W8_main_arg12 m ρ c),
       (h c _ (Cert.KernelIdeal.GenP.mem_uc Cert.KernelIdeal.main_arg13 (by decide))).trans (Cert.KernelIdeal.GenP.W8_main_arg13 m ρ c),
       (h c _ (Cert.KernelIdeal.GenP.mem_uc Cert.KernelIdeal.main_arg14 (by decide))).trans (Cert.KernelIdeal.GenP.W8_main_arg14 m ρ c)⟩)
  · refine (θ_run Cert.ReferenceIdeal.defs _ _).mono (fun _ h c => ⟨(h c).1.trans ?_, (h c).2⟩)
      (Cert.ReferenceIdeal.Value.run (F := Ideal) m' ρ')
    rw [ref_is_net]
    obtain ⟨e0, e1, e2, e3, e4, e5, e6, e7, e8, e9, e10, e11, e12, e13, e14⟩ := hagree c
    rw [e0, e1, e2, e3, e4, e5, e6, e7, e8, e9, e10, e11, e12, e13, e14]

end Cert.Proof.Claims

end
-- ==== Proof.lean ====
/-
  The proof of `Cert.Claim`: a two-layer message-passing network over 50000 nodes and 800000 edges.

  Each convolution gathers the node features at the edges' endpoints, applies a message layer (a dense layer on the
  joined target, edge and source features, clamped at zero), sums the messages at their target nodes, adds the
  node features and applies a two-layer perceptron with a zero clamp after each layer. The kernel runs the message
  layer and the node update as four pipelined kernels over blocks of rows, the host doing the gathers and the sums
  in between; the reference is the same network in plain array operations.

  * The three frames: the two kernel programs' frame proofs (Proof/KernelFrameP, Proof/KernelIdealFrameP) and the
    reference's run with its result dropped.
  * `preserves`: the ideal pass rewrote nothing.
  * `algebraic`: Proof/KClaims.lean — both results are one function `net` of the argument arrays
    (Proof/KNet.lean), the kernel's read off its run block by block (Proof/KEdge0, KNode1, KEdge2, KNode3 for what
    each kernel leaves; Proof/KConv1, KConv2 for the stretches between them), the block-to-array law in
    Proof/LibMessageLayers.lean.
-/
import proofs.«113108_j87514253623335_1_alg».proof.Defs
import proofs.«113108_j87514253623335_1_alg».proof.Proof.Gen.Kernel
import proofs.«113108_j87514253623335_1_alg».proof.Proof.Gen.KernelIdeal
import proofs.«113108_j87514253623335_1_alg».proof.Proof.Gen.ReferenceIdeal
import proofs.«113108_j87514253623335_1_alg».proof.Proof.Gen.ReferenceIdeal.Run
import proofs.«113108_j87514253623335_1_alg».proof.Proof.Gen.Pre_finite_inputs
import proofs.«113108_j87514253623335_1_alg».proof.Proof.KClaims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
